-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x518 : Shape := ⟨2, ![100000, 518]⟩
abbrev S2x1600000 : Shape := ⟨2, ![2, 1600000]⟩
abbrev S518x128 : Shape := ⟨2, ![518, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S100000x518 : S_.BroadcastsInDim S100000x518 (![] : Fin 0 → Fin S100000x518.rank)
  reducesTo_S100000x518_S_d0_1 : S100000x518.ReducesTo [0, 1] S_
  h_S_ : 0 < S_.numel
  bcast_S_S518x128 : S_.BroadcastsInDim S518x128 (![] : Fin 0 → Fin S518x128.rank)
  reducesTo_S518x128_S_d0_1 : S518x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S64x4 .f32) (main_arg9 : FVec F S4 .f32) (main_v33 : IVec S_ 1) : IVec S_ 1 :=
  let main_v34 : FVec F S64x4 .f32 := Host.absf main_arg8
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x4 .f32) (main_arg9 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x518 .f32) (main_arg1 : IVec S2x1600000 32) (main_arg2 : FVec F S518x128 .f32) (main_arg3 : FVec F S128 .f32) (main_arg4 : FVec F S128x128 .f32) (main_arg5 : FVec F S128 .f32) (main_arg6 : FVec F S128x64 .f32) (main_arg7 : FVec F S64 .f32) (main_arg8 : FVec F S64x4 .f32) (main_arg9 : FVec F S4 .f32) : IVec S_ 1 :=
  let main_v0 : FVec F S100000x518 .f32 := Host.absf main_arg0
  let main_cst : FVec F S_ .f32 := constant S_ .f32 0x7F800000#32
  let main_v1 : FVec F S100000x518 .f32 := broadcastInDim S100000x518 ![] bcast_S_S100000x518 main_cst
  let main_v2 : IVec S100000x518 1 := cmpf .olt main_v0 main_v1
  let main_c : IVec S_ 1 := constantI S_ 1 1#1
  let main_v3 : IVec S_ 1 := (fun x v => Host.reduce IntOp.andi x v reducesTo_S100000x518_S_d0_1 h_S_) main_v2 main_c
  let main_v4 : FVec F S518x128 .f32 := Host.absf main_arg2
  let main_cst_0 : FVec F S_ .f32 := constant S_ .f32 0x7F800000#32
  let main_v5 : FVec F S518x128 .f32 := broadcastInDim S518x128 ![] bcast_S_S518x128 main_cst_0
  let main_v6 : IVec S518x128 1 := cmpf .olt main_v4 main_v5
  let main_c_1 : IVec S_ 1 := constantI S_ 1 1#1
  let main_v7 : IVec S_ 1 := (fun x v => Host.reduce IntOp.andi x v reducesTo_S518x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x518 : Shape := ⟨2, ![100000, 518]⟩
abbrev S2x1600000 : Shape := ⟨2, ![2, 1600000]⟩
abbrev S518x128 : Shape := ⟨2, ![518, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x518 : Shape := ⟨2, ![2000, 518]⟩
abbrev S2000x128 : Shape := ⟨2, ![2000, 128]⟩
abbrev S1700000x128 : Shape := ⟨2, ![1700000, 128]⟩
abbrev S1x128 : Shape := ⟨2, ![1, 128]⟩
abbrev S100000x4 : Shape := ⟨2, ![100000, 4]⟩
abbrev S2000x4 : Shape := ⟨2, ![2000, 4]⟩
abbrev S2000x64 : Shape := ⟨2, ![2000, 64]⟩
abbrev S1x64 : Shape := ⟨2, ![1, 64]⟩
abbrev S1x4 : Shape := ⟨2, ![1, 4]⟩

abbrev nBuf : Space → Nat
  | .hbm => 93
  | .vmem => 18
  | .smem => 0
  | _ => 0

abbrev bufTy : (tb : Table) → Fin (tcTables nBuf tb) → BufTy
  | .hbm, ⟨0, _⟩ => ⟨S100000x518, .f32⟩
  | .hbm, ⟨1, _⟩ => ⟨S2x1600000, .i32⟩
  | .hbm, ⟨2, _⟩ => ⟨S518x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x4, .f32⟩
  | .hbm, ⟨9, _⟩ => ⟨S4, .f32⟩
  | .hbm, ⟨10, _⟩ => ⟨S100000, .i32⟩
  | .hbm, ⟨11, _⟩ => ⟨S1x100000, .i32⟩
  | .hbm, ⟨12, _⟩ => ⟨S1x100000, .i32⟩
  | .hbm, ⟨13, _⟩ => ⟨S2x100000, .i32⟩
  | .hbm, ⟨14, _⟩ => ⟨S2x1700000, .i32⟩
  | .hbm, ⟨15, _⟩ => ⟨S1x1700000, .i32⟩
  | .hbm, ⟨16, _⟩ => ⟨S1700000, .i32⟩
  | .hbm, ⟨17, _⟩ => ⟨S1x1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S100000x4, .f32⟩
  | .local _ .vmem, ⟨0, _⟩ => ⟨S2000x518, .f32⟩
  | .local _ .vmem, ⟨1, _⟩ => ⟨S2000x518, .f32⟩
  | .local _ .vmem, ⟨2, _⟩ => ⟨S518x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S64, .f32⟩
  | .local _ .vmem, ⟨14, _⟩ => ⟨S64x4, .f32⟩
  | .local _ .vmem, ⟨15, _⟩ => ⟨S4, .f32⟩
  | .local _ .vmem, ⟨16, _⟩ => ⟨S2000x4, .f32⟩
  | .local _ .vmem, ⟨17, _⟩ => ⟨S2000x4, .f32⟩
  | _, _ => ⟨S100000x518, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x518 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S518x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x518_S2000x518_0_0 : ∀ a, (![0, 0] : Fin 2 → Nat) a + S2000x518.size a ≤ S2000x518.size a
  h_S2000x518 : 0 < S2000x518.numel
  bitsLt_bf16_f32 : FTy.bits .bf16 < FTy.bits .f32
  inb_S518x128_S518x128_0_0 : ∀ a, (![0, 0] : Fin 2 → Nat) a + S518x128.size a ≤ S518x128.size a
  h_S518x128 : 0 < S518x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  shapeCasts_S4_S1x4 : S4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x518_S518x128_S2000x128_1_0_0_1_n_n_wf : DotDims.WF S2000x518 S518x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x4_S2000x4_1_0_0_1_n_n_wf : DotDims.WF S2000x64 S64x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x518.size a ≤ S100000x518.size a
  hwx0_0 : ∀ i : grid0.Coords, EltTy.bits .f32 = 32 ∨ (Rect.block (s := S100000x518) S2000x518.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S518x128.size a ≤ S518x128.size a
  hwx0_1 : ∀ i : grid0.Coords, EltTy.bits .f32 = 32 ∨ (Rect.block (s := S518x128) S518x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x4.size a ≤ S64x4.size a
  hwx2_3 : ∀ i : grid2.Coords, EltTy.bits .f32 = 32 ∨ (Rect.block (s := S64x4) S64x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4.size a ≤ S4.size a
  hwx2_4 : ∀ i : grid2.Coords, EltTy.bits .f32 = 32 ∨ (Rect.block (s := S4) S4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x4.size a ≤ S100000x4.size a
  hwx2_5 : ∀ i : grid2.Coords, EltTy.bits .f32 = 32 ∨ (Rect.block (s := S100000x4) S2000x4.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x518_S518x128_S2000x128_1_0_0_1_n_n : DotDims S2000x518 S518x128 S2000x128 where
  lhsContracting := [1]
  rhsContracting := [0]
  lhsNonContracting := [0]
  rhsNonContracting := [1]
  lhsBatch := []
  rhsBatch := []
  wf := dot_S2000x518_S518x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf

abbrev win0_0 : Pipeline.Window sig grid0 :=
  Pipeline.Window.ofSpec (Memref.whole main_arg0) S2000x518.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S518x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x518 : Shape := ⟨2, ![100000, 518]⟩
abbrev S2x1600000 : Shape := ⟨2, ![2, 1600000]⟩
abbrev S518x128 : Shape := ⟨2, ![518, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S100000x4 : Shape := ⟨2, ![100000, 4]⟩
abbrev S1x4 : Shape := ⟨2, ![1, 4]⟩

abbrev nBuf : Space → Nat
  | .hbm => 143
  | .vmem => 0
  | .smem => 0
  | _ => 0

abbrev hbmTy0_0 (i : Nat) : BufTy := match i % 128 with
  | 0 => ⟨S100000x518, .f32⟩
  | 1 => ⟨S2x1600000, .i32⟩
  | 2 => ⟨S518x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x4, .f32⟩
  | 9 => ⟨S4, .f32⟩
  | 10 => ⟨S100000, .i32⟩
  | 11 => ⟨S1x100000, .i32⟩
  | 12 => ⟨S1x100000, .i32⟩
  | 13 => ⟨S2x100000, .i32⟩
  | 14 => ⟨S2x1700000, .i32⟩
  | 15 => ⟨S1x1700000, .i32⟩
  | 16 => ⟨S1700000, .i32⟩
  | 17 => ⟨S1x1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S1x1700000, .i32⟩
  | 73 => ⟨S1700000, .i32⟩
  | 74 => ⟨S1x1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x128, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x518, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x4, .f32⟩
  | 12 => ⟨S1x4, .f32⟩
  | 13 => ⟨S100000x4, .f32⟩
  | 14 => ⟨S100000x4, .f32⟩
  | _ => ⟨S100000x518, .f32⟩

abbrev hbmTy (i : Nat) : BufTy := match i / 128 with
  | 0 => hbmTy0_0 i
  | 1 => hbmTy0_1 i
  | _ => ⟨S100000x518, .f32⟩

abbrev bufTy : (tb : Table) → Fin (tcTables nBuf tb) → BufTy
  | .hbm, ⟨i, _⟩ => hbmTy i
  | _, _ => ⟨S100000x518, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x518_S518x128_S100000x128_1_0_0_1_n_n_wf : DotDims.WF S100000x518 S518x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x4_S100000x4_1_0_0_1_n_n_wf : DotDims.WF S100000x64 S64x4 S100000x4 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x518_S518x128_S100000x128_1_0_0_1_n_n : DotDims S100000x518 S518x128 S100000x128 where
  lhsContracting := [1]
  rhsContracting := [0]
  lhsNonContracting := [0]
  rhsNonContracting := [1]
  lhsBatch := []
  rhsBatch := []
  wf := dot_S100000x518_S518x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.HostFn.lean ====
/-
  The host side of the graph network as pure functions of arrays: the edge list with self loops, its two rows,
  the nodes' degrees and the symmetric normalisation of the edges, and one round of message passing.  Each definition lists the host
  operations in program order, one `let` per operation; both programs apply exactly these operations.
-/
import proofs.«147668_j2740189135665_1_alg».proof.KernelIdeal

noncomputable section

namespace Cert.KernelIdeal.HostFn

open Cert.KernelIdeal Cert.KernelIdeal.Facts₀ Idealize.ShloMosaic

variable {F : FTy → Type} [FloatOps F] [Facts₀]

/-- The edge list with one self loop per node appended: row 0 the source of every edge, row 1 its destination; the last 100000 columns are (j, j). -/
def edges (arg1 : (⟨S2x1600000, .i32⟩ : BufTy).Contents (Elt F)) : (⟨S2x1700000, .i32⟩ : BufTy).Contents (Elt F) :=
  let v0 : (⟨S100000, .i32⟩ : BufTy).Contents (Elt F) := (iotaInDim S100000 32 0)
  let v1 : (⟨S1x100000, .i32⟩ : BufTy).Contents (Elt F) := (broadcastInDim S1x100000 ![1] bcast_S100000_S1x100000_1 : (⟨S100000, .i32⟩ : BufTy).Contents (Elt F) → (⟨S1x100000, .i32⟩ : BufTy).Contents (Elt F)) v0
  let v2 : (⟨S1x100000, .i32⟩ : BufTy).Contents (Elt F) := (broadcastInDim S1x100000 ![1] bcast_S100000_S1x100000_1 : (⟨S100000, .i32⟩ : BufTy).Contents (Elt F) → (⟨S1x100000, .i32⟩ : BufTy).Contents (Elt F)) v0
  let v3 : (⟨S2x100000, .i32⟩ : BufTy).Contents (Elt F) := ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)) v1 v2
  let v4 : (⟨S2x1700000, .i32⟩ : BufTy).Contents (Elt F) := ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)) arg1 v3
  v4

/-- Row 0 of the edge list, as a vector: the source node of every edge. -/
def srcE (v4 : (⟨S2x1700000, .i32⟩ : BufTy).Contents (Elt F)) : (⟨S1700000, .i32⟩ : BufTy).Contents (Elt F) :=
  let v5 : (⟨S1x1700000, .i32⟩ : BufTy).Contents (Elt F) := ((extractStridedSlice S1x1700000 ![0, 0] · slices_S2x1700000_S1x1700000_0_0) : (⟨S2x1700000, .i32⟩ : BufTy).Contents (Elt F) → (⟨S1x1700000, .i32⟩ : BufTy).Contents (Elt F)) v4
  let v6 : (⟨S1700000, .i32⟩ : BufTy).Contents (Elt F) := shapeCast S1700000 v5 shapeCasts_S1x1700000_S1700000
  v6

/-- Row 1 of the edge list, as a vector: the destination node of every edge. -/
def dstE (v4 : (⟨S2x1700000, .i32⟩ : BufTy).Contents (Elt F)) : (⟨S1700000, .i32⟩ : BufTy).Contents (Elt F) :=
  let v7 : (⟨S1x1700000, .i32⟩ : BufTy).Contents (Elt F) := ((extractStridedSlice S1x1700000 ![1, 0] · slices_S2x1700000_S1x1700000_1_0) : (⟨S2x1700000, .i32⟩ : BufTy).Contents (Elt F) → (⟨S1x1700000, .i32⟩ : BufTy).Contents (Elt F)) v4
  let v8 : (⟨S1700000, .i32⟩ : BufTy).Contents (Elt F) := shapeCast S1700000 v7 shapeCasts_S1x1700000_S1700000
  v8

/-- The in-degree of every node: ones added at the destinations of the edges, from zero. -/
def degOf (v8 : (⟨S1700000, .i32⟩ : BufTy).Contents (Elt F)) : (⟨S100000, .f32⟩ : BufTy).Contents (Elt F) :=
  let cst : (⟨S_, .f32⟩ : BufTy).Contents (Elt F) := (constant S_ .f32 0x3F800000#32)
  let v9 : (⟨S1700000, .f32⟩ : BufTy).Contents (Elt F) := (broadcastInDim S1700000 ![] bcast_S_S1700000 : (⟨S_, .f32⟩ : BufTy).Contents (Elt F) → (⟨S1700000, .f32⟩ : BufTy).Contents (Elt F)) cst
  let cst_0 : (⟨S_, .f32⟩ : BufTy).Contents (Elt F) := (constant S_ .f32 0x00000000#32)
  let v10 : (⟨S100000, .f32⟩ : BufTy).Contents (Elt F) := (broadcastInDim S100000 ![] bcast_S_S100000 : (⟨S_, .f32⟩ : BufTy).Contents (Elt F) → (⟨S100000, .f32⟩ : BufTy).Contents (Elt F)) cst_0
  let v11 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) v8
  let v12 : (⟨S100000, .f32⟩ : BufTy).Contents (Elt F) := ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) v10 v11 v9
  v12

/-- The inverse square root of a degree where it is positive, zero elsewhere. -/
def dinvOf (v12 : (⟨S100000, .f32⟩ : BufTy).Contents (Elt F)) : (⟨S100000, .f32⟩ : BufTy).Contents (Elt F) :=
  let cst_1 : (⟨S_, .f32⟩ : BufTy).Contents (Elt F) := (constant S_ .f32 0x00000000#32)
  let v13 : (⟨S100000, .f32⟩ : BufTy).Contents (Elt F) := (broadcastInDim S100000 ![] bcast_S_S100000 : (⟨S_, .f32⟩ : BufTy).Contents (Elt F) → (⟨S100000, .f32⟩ : BufTy).Contents (Elt F)) cst_1
  let v14 : (⟨S100000, .i1⟩ : BufTy).Contents (Elt F) := (cmpf .ogt : (⟨S100000, .f32⟩ : BufTy).Contents (Elt F) → (⟨S100000, .f32⟩ : BufTy).Contents (Elt F) → (⟨S100000, .i1⟩ : BufTy).Contents (Elt F)) v12 v13
  let v15 : (⟨S100000, .f32⟩ : BufTy).Contents (Elt F) := (Host.rsqrt : (⟨S100000, .f32⟩ : BufTy).Contents (Elt F) → (⟨S100000, .f32⟩ : BufTy).Contents (Elt F)) v12
  let cst_2 : (⟨S_, .f32⟩ : BufTy).Contents (Elt F) := (constant S_ .f32 0x00000000#32)
  let call0_v0 : (⟨S_, .f32⟩ : BufTy).Contents (Elt F) := id cst_2
  let call0_v1 : (⟨S100000, .f32⟩ : BufTy).Contents (Elt F) := (broadcastInDim S100000 ![] bcast_S_S100000) call0_v0
  let v16 : (⟨S100000, .f32⟩ : BufTy).Contents (Elt F) := select v14 v15 call0_v1
  v16

/-- Node numbers made ready for indexing: a negative number wrapped by the number of nodes, each as a one-entry index row. -/
def wrapIdx (v6 : (⟨S1700000, .i32⟩ : BufTy).Contents (Elt F)) : (⟨S1700000x1, .i32⟩ : BufTy).Contents (Elt F) :=
  let c : (⟨S_, .i32⟩ : BufTy).Contents (Elt F) := (constantI S_ 32 0#32)
  let v17 : (⟨S1700000, .i32⟩ : BufTy).Contents (Elt F) := (broadcastInDim S1700000 ![] bcast_S_S1700000 : (⟨S_, .i32⟩ : BufTy).Contents (Elt F) → (⟨S1700000, .i32⟩ : BufTy).Contents (Elt F)) c
  let v18 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) v6 v17
  let c_3 : (⟨S_, .i32⟩ : BufTy).Contents (Elt F) := (constantI S_ 32 100000#32)
  let v19 : (⟨S1700000, .i32⟩ : BufTy).Contents (Elt F) := (broadcastInDim S1700000 ![] bcast_S_S1700000 : (⟨S_, .i32⟩ : BufTy).Contents (Elt F) → (⟨S1700000, .i32⟩ : BufTy).Contents (Elt F)) c_3
  let v20 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) v6 v19
  let v21 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) v18 v20 v6
  let v22 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) v21
  v22

/-- The symmetric normalisation of every edge: the product of the inverse square root of the degree at the edge's source and at its destination. -/
def normSD (v6 : (⟨S1700000, .i32⟩ : BufTy).Contents (Elt F)) (v8 : (⟨S1700000, .i32⟩ : BufTy).Contents (Elt F)) : (⟨S1700000, .f32⟩ : BufTy).Contents (Elt F) :=
  mulf (Host.gather gather_S100000_S1700000x1_S1700000_n_0_n_n_0_1_1 (dinvOf (degOf v8)) (wrapIdx v6))
    (Host.gather gather_S100000_S1700000x1_S1700000_n_0_n_n_0_1_1 (dinvOf (degOf v8)) (wrapIdx v8))

/-- One round of message passing: gather the feature row of every edge's source, scale it by the edge's weight, add it into the row of the edge's destination (a scatter-add from zero), and add the bias to every row. -/
def agg (v32 : (⟨S100000x128, .f32⟩ : BufTy).Contents (Elt F)) (v6 : (⟨S1700000, .i32⟩ : BufTy).Contents (Elt F)) (v8 : (⟨S1700000, .i32⟩ : BufTy).Contents (Elt F)) (v31 : (⟨S1700000, .f32⟩ : BufTy).Contents (Elt F)) (arg3 : (⟨S128, .f32⟩ : BufTy).Contents (Elt F)) : (⟨S100000x128, .f32⟩ : BufTy).Contents (Elt F) :=
  let c_6 : (⟨S_, .i32⟩ : BufTy).Contents (Elt F) := (constantI S_ 32 0#32)
  let v33 : (⟨S1700000, .i32⟩ : BufTy).Contents (Elt F) := (broadcastInDim S1700000 ![] bcast_S_S1700000 : (⟨S_, .i32⟩ : BufTy).Contents (Elt F) → (⟨S1700000, .i32⟩ : BufTy).Contents (Elt F)) c_6
  let v34 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) v6 v33
  let c_7 : (⟨S_, .i32⟩ : BufTy).Contents (Elt F) := (constantI S_ 32 100000#32)
  let v35 : (⟨S1700000, .i32⟩ : BufTy).Contents (Elt F) := (broadcastInDim S1700000 ![] bcast_S_S1700000 : (⟨S_, .i32⟩ : BufTy).Contents (Elt F) → (⟨S1700000, .i32⟩ : BufTy).Contents (Elt F)) c_7
  let v36 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) v6 v35
  let v37 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) v34 v36 v6
  let v38 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) v37
  let v39 : (⟨S1700000x128, .f32⟩ : BufTy).Contents (Elt F) := ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) v32 v38
  let v40 : (⟨S1700000x1, .f32⟩ : BufTy).Contents (Elt F) := (broadcastInDim S1700000x1 ![0] bcast_S1700000_S1700000x1_0 : (⟨S1700000, .f32⟩ : BufTy).Contents (Elt F) → (⟨S1700000x1, .f32⟩ : BufTy).Contents (Elt F)) v31
  let v41 : (⟨S1700000x128, .f32⟩ : BufTy).Contents (Elt F) := (broadcastInDim S1700000x128 ![0, 1] bcast_S1700000x1_S1700000x128_0_1 : (⟨S1700000x1, .f32⟩ : BufTy).Contents (Elt F) → (⟨S1700000x128, .f32⟩ : BufTy).Contents (Elt F)) v40
  let v42 : (⟨S1700000x128, .f32⟩ : BufTy).Contents (Elt F) := (mulf : (⟨S1700000x128, .f32⟩ : BufTy).Contents (Elt F) → (⟨S1700000x128, .f32⟩ : BufTy).Contents (Elt F) → (⟨S1700000x128, .f32⟩ : BufTy).Contents (Elt F)) v39 v41
  let cst_8 : (⟨S_, .f32⟩ : BufTy).Contents (Elt F) := (constant S_ .f32 0x00000000#32)
  let v43 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_8
  let v44 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) v8
  let v45 : (⟨S100000x128, .f32⟩ : BufTy).Contents (Elt F) := ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) v43 v44 v42
  let v46 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) arg3
  let v47 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v46
  let v48 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v45 v47
  v48

end Cert.KernelIdeal.HostFn

end
-- ==== Proof.KernelHost.lean ====
/-
  The kernel program's host stretches read as the pure host functions: what each stretch leaves in the buffers a
  later region or stretch reads, from ANY buffer contents W the stretch starts from, and which buffers it leaves alone.
-/
import proofs.«147668_j2740189135665_1_alg».proof.Proof.Gen.KernelIdeal.Launch
import proofs.«147668_j2740189135665_1_alg».proof.Proof.HostFn
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-- A buffer that no operation of a stretch writes keeps its contents: the operations' result buffers are listed and
    each is another reference. -/
macro "host_keeps" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The operations' results rewritten one at a time (what the one-pass rewriting leaves inside a concatenation's operand list). -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The stretches before region 0: the edge list, its rows, the edge weights -/

/-- The three stretches before region 0, from contents W. -/
abbrev pre0 : Valuation τ sig (Elt F) := StableHlo.after hostOps0_2 (StableHlo.after hostOps0_1 (StableHlo.after hostOps0 W))

theorem pre0_v6 : pre0 W (Proc.devRef .tc main_v6) = HostFn.srcE (HostFn.edges (W (Proc.devRef .tc main_arg1))) := by
  dsimp only [pre0, hostOps0, hostOps0_1, hostOps0_2]; after_results; rfl
theorem pre0_v8 : pre0 W (Proc.devRef .tc main_v8) = HostFn.dstE (HostFn.edges (W (Proc.devRef .tc main_arg1))) := by
  dsimp only [pre0, hostOps0, hostOps0_1, hostOps0_2]; after_results; rfl
set_option maxHeartbeats 40000000 in
theorem pre0_v31 : pre0 W (Proc.devRef .tc main_v31)
    = HostFn.normSD (HostFn.srcE (HostFn.edges (W (Proc.devRef .tc main_arg1)))) (HostFn.dstE (HostFn.edges (W (Proc.devRef .tc main_arg1)))) := by
  dsimp only [pre0, hostOps0, hostOps0_1, hostOps0_2]; after_results_simp; results_rw; rfl
theorem keep0_arg0 : StableHlo.after (hostOps0 : List (HloOp τ sig (Elt F))) W (Proc.devRef .tc main_arg0) = W (Proc.devRef .tc main_arg0) := by host_keeps
theorem keep01_arg0 : StableHlo.after (hostOps0_1 : List (HloOp τ sig (Elt F))) W (Proc.devRef .tc main_arg0) = W (Proc.devRef .tc main_arg0) := by host_keeps
theorem keep02_arg0 : StableHlo.after (hostOps0_2 : List (HloOp τ sig (Elt F))) W (Proc.devRef .tc main_arg0) = W (Proc.devRef .tc main_arg0) := by host_keeps
theorem pre0_arg0 : pre0 W (Proc.devRef .tc main_arg0) = W (Proc.devRef .tc main_arg0) :=
  (keep02_arg0 _).trans ((keep01_arg0 _).trans (keep0_arg0 W))
theorem keep0_arg2 : StableHlo.after (hostOps0 : List (HloOp τ sig (Elt F))) W (Proc.devRef .tc main_arg2) = W (Proc.devRef .tc main_arg2) := by host_keeps
theorem keep01_arg2 : StableHlo.after (hostOps0_1 : List (HloOp τ sig (Elt F))) W (Proc.devRef .tc main_arg2) = W (Proc.devRef .tc main_arg2) := by host_keeps
theorem keep02_arg2 : StableHlo.after (hostOps0_2 : List (HloOp τ sig (Elt F))) W (Proc.devRef .tc main_arg2) = W (Proc.devRef .tc main_arg2) := by host_keeps
theorem pre0_arg2 : pre0 W (Proc.devRef .tc main_arg2) = W (Proc.devRef .tc main_arg2) :=
  (keep02_arg2 _).trans ((keep01_arg2 _).trans (keep0_arg2 W))
theorem keep0_arg3 : StableHlo.after (hostOps0 : List (HloOp τ sig (Elt F))) W (Proc.devRef .tc main_arg3) = W (Proc.devRef .tc main_arg3) := by host_keeps
theorem keep01_arg3 : StableHlo.after (hostOps0_1 : List (HloOp τ sig (Elt F))) W (Proc.devRef .tc main_arg3) = W (Proc.devRef .tc main_arg3) := by host_keeps
theorem keep02_arg3 : StableHlo.after (hostOps0_2 : List (HloOp τ sig (Elt F))) W (Proc.devRef .tc main_arg3) = W (Proc.devRef .tc main_arg3) := by host_keeps
theorem pre0_arg3 : pre0 W (Proc.devRef .tc main_arg3) = W (Proc.devRef .tc main_arg3) :=
  (keep02_arg3 _).trans ((keep01_arg3 _).trans (keep0_arg3 W))
theorem keep0_arg4 : StableHlo.after (hostOps0 : List (HloOp τ sig (Elt F))) W (Proc.devRef .tc main_arg4) = W (Proc.devRef .tc main_arg4) := by host_keeps
theorem keep01_arg4 : StableHlo.after (hostOps0_1 : List (HloOp τ sig (Elt F))) W (Proc.devRef .tc main_arg4) = W (Proc.devRef .tc main_arg4) := by host_keeps
theorem keep02_arg4 : StableHlo.after (hostOps0_2 : List (HloOp τ sig (Elt F))) W (Proc.devRef .tc main_arg4) = W (Proc.devRef .tc main_arg4) := by host_keeps
theorem pre0_arg4 : pre0 W (Proc.devRef .tc main_arg4) = W (Proc.devRef .tc main_arg4) :=
  (keep02_arg4 _).trans ((keep01_arg4 _).trans (keep0_arg4 W))
theorem keep0_arg5 : StableHlo.after (hostOps0 : List (HloOp τ sig (Elt F))) W (Proc.devRef .tc main_arg5) = W (Proc.devRef .tc main_arg5) := by host_keeps
theorem keep01_arg5 : StableHlo.after (hostOps0_1 : List (HloOp τ sig (Elt F))) W (Proc.devRef .tc main_arg5) = W (Proc.devRef .tc main_arg5) := by host_keeps
theorem keep02_arg5 : StableHlo.after (hostOps0_2 : List (HloOp τ sig (Elt F))) W (Proc.devRef .tc main_arg5) = W (Proc.devRef .tc main_arg5) := by host_keeps
theorem pre0_arg5 : pre0 W (Proc.devRef .tc main_arg5) = W (Proc.devRef .tc main_arg5) :=
  (keep02_arg5 _).trans ((keep01_arg5 _).trans (keep0_arg5 W))
theorem keep0_arg6 : StableHlo.after (hostOps0 : List (HloOp τ sig (Elt F))) W (Proc.devRef .tc main_arg6) = W (Proc.devRef .tc main_arg6) := by host_keeps
theorem keep01_arg6 : StableHlo.after (hostOps0_1 : List (HloOp τ sig (Elt F))) W (Proc.devRef .tc main_arg6) = W (Proc.devRef .tc main_arg6) := by host_keeps
theorem keep02_arg6 : StableHlo.after (hostOps0_2 : List (HloOp τ sig (Elt F))) W (Proc.devRef .tc main_arg6) = W (Proc.devRef .tc main_arg6) := by host_keeps
theorem pre0_arg6 : pre0 W (Proc.devRef .tc main_arg6) = W (Proc.devRef .tc main_arg6) :=
  (keep02_arg6 _).trans ((keep01_arg6 _).trans (keep0_arg6 W))
theorem keep0_arg7 : StableHlo.after (hostOps0 : List (HloOp τ sig (Elt F))) W (Proc.devRef .tc main_arg7) = W (Proc.devRef .tc main_arg7) := by host_keeps
theorem keep01_arg7 : StableHlo.after (hostOps0_1 : List (HloOp τ sig (Elt F))) W (Proc.devRef .tc main_arg7) = W (Proc.devRef .tc main_arg7) := by host_keeps
theorem keep02_arg7 : StableHlo.after (hostOps0_2 : List (HloOp τ sig (Elt F))) W (Proc.devRef .tc main_arg7) = W (Proc.devRef .tc main_arg7) := by host_keeps
theorem pre0_arg7 : pre0 W (Proc.devRef .tc main_arg7) = W (Proc.devRef .tc main_arg7) :=
  (keep02_arg7 _).trans ((keep01_arg7 _).trans (keep0_arg7 W))
theorem keep0_arg8 : StableHlo.after (hostOps0 : List (HloOp τ sig (Elt F))) W (Proc.devRef .tc main_arg8) = W (Proc.devRef .tc main_arg8) := by host_keeps
theorem keep01_arg8 : StableHlo.after (hostOps0_1 : List (HloOp τ sig (Elt F))) W (Proc.devRef .tc main_arg8) = W (Proc.devRef .tc main_arg8) := by host_keeps
theorem keep02_arg8 : StableHlo.after (hostOps0_2 : List (HloOp τ sig (Elt F))) W (Proc.devRef .tc main_arg8) = W (Proc.devRef .tc main_arg8) := by host_keeps
theorem pre0_arg8 : pre0 W (Proc.devRef .tc main_arg8) = W (Proc.devRef .tc main_arg8) :=
  (keep02_arg8 _).trans ((keep01_arg8 _).trans (keep0_arg8 W))
theorem keep0_arg9 : StableHlo.after (hostOps0 : List (HloOp τ sig (Elt F))) W (Proc.devRef .tc main_arg9) = W (Proc.devRef .tc main_arg9) := by host_keeps
theorem keep01_arg9 : StableHlo.after (hostOps0_1 : List (HloOp τ sig (Elt F))) W (Proc.devRef .tc main_arg9) = W (Proc.devRef .tc main_arg9) := by host_keeps
theorem keep02_arg9 : StableHlo.after (hostOps0_2 : List (HloOp τ sig (Elt F))) W (Proc.devRef .tc main_arg9) = W (Proc.devRef .tc main_arg9) := by host_keeps
theorem pre0_arg9 : pre0 W (Proc.devRef .tc main_arg9) = W (Proc.devRef .tc main_arg9) :=
  (keep02_arg9 _).trans ((keep01_arg9 _).trans (keep0_arg9 W))

/-! ## The stretch between regions 0 and 1, and the one between regions 1 and 2: one round of message passing each -/

set_option maxHeartbeats 8000000 in
theorem mid1_v48 : StableHlo.after hostOps1 W (Proc.devRef .tc main_v48)
    = HostFn.agg (W (Proc.devRef .tc main_v32)) (W (Proc.devRef .tc main_v6)) (W (Proc.devRef .tc main_v8)) (W (Proc.devRef .tc main_v31)) (W (Proc.devRef .tc main_arg3)) := by
  dsimp only [hostOps1]; after_results_simp; rfl
set_option maxHeartbeats 8000000 in
theorem mid2_v65 : StableHlo.after hostOps2 W (Proc.devRef .tc main_v65)
    = HostFn.agg (W (Proc.devRef .tc main_v49)) (W (Proc.devRef .tc main_v6)) (W (Proc.devRef .tc main_v8)) (W (Proc.devRef .tc main_v31)) (W (Proc.devRef .tc main_arg5)) := by
  dsimp only [hostOps2]; after_results_simp; rfl
theorem keep1_v6 : StableHlo.after (hostOps1 : List (HloOp τ sig (Elt F))) W (Proc.devRef .tc main_v6) = W (Proc.devRef .tc main_v6) := by host_keeps
theorem keep1_v8 : StableHlo.after (hostOps1 : List (HloOp τ sig (Elt F))) W (Proc.devRef .tc main_v8) = W (Proc.devRef .tc main_v8) := by host_keeps
theorem keep1_v31 : StableHlo.after (hostOps1 : List (HloOp τ sig (Elt F))) W (Proc.devRef .tc main_v31) = W (Proc.devRef .tc main_v31) := by host_keeps
theorem keep1_arg4 : StableHlo.after (hostOps1 : List (HloOp τ sig (Elt F))) W (Proc.devRef .tc main_arg4) = W (Proc.devRef .tc main_arg4) := by host_keeps
theorem keep1_arg5 : StableHlo.after (hostOps1 : List (HloOp τ sig (Elt F))) W (Proc.devRef .tc main_arg5) = W (Proc.devRef .tc main_arg5) := by host_keeps
theorem keep1_arg6 : StableHlo.after (hostOps1 : List (HloOp τ sig (Elt F))) W (Proc.devRef .tc main_arg6) = W (Proc.devRef .tc main_arg6) := by host_keeps
theorem keep1_arg7 : StableHlo.after (hostOps1 : List (HloOp τ sig (Elt F))) W (Proc.devRef .tc main_arg7) = W (Proc.devRef .tc main_arg7) := by host_keeps
theorem keep1_arg8 : StableHlo.after (hostOps1 : List (HloOp τ sig (Elt F))) W (Proc.devRef .tc main_arg8) = W (Proc.devRef .tc main_arg8) := by host_keeps
theorem keep1_arg9 : StableHlo.after (hostOps1 : List (HloOp τ sig (Elt F))) W (Proc.devRef .tc main_arg9) = W (Proc.devRef .tc main_arg9) := by host_keeps
theorem keep2_arg6 : StableHlo.after (hostOps2 : List (HloOp τ sig (Elt F))) W (Proc.devRef .tc main_arg6) = W (Proc.devRef .tc main_arg6) := by host_keeps
theorem keep2_arg7 : StableHlo.after (hostOps2 : List (HloOp τ sig (Elt F))) W (Proc.devRef .tc main_arg7) = W (Proc.devRef .tc main_arg7) := by host_keeps
theorem keep2_arg8 : StableHlo.after (hostOps2 : List (HloOp τ sig (Elt F))) W (Proc.devRef .tc main_arg8) = W (Proc.devRef .tc main_arg8) := by host_keeps
theorem keep2_arg9 : StableHlo.after (hostOps2 : List (HloOp τ sig (Elt F))) W (Proc.devRef .tc main_arg9) = W (Proc.devRef .tc main_arg9) := by host_keeps

end Cert.KernelIdeal.HostStages

end
-- ==== Proof.Spec.lean ====
/-
  The dense layers of the graph network, as functions of whole arrays read entry by entry on the
  extended reals.  A node-feature array has one row per node; each dense layer acts on every row by
  itself: a matrix product is, at row r and column c, the sum over the inner index of the products
  X r l · W l c; a bias is added to every row; the rectifier takes the larger of an entry and zero.
  The classifier head is rectifier, product, bias, rectifier, product, bias.  Every definition is
  generic in the number of rows, so that the same text reads a block of rows and the whole array.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The float zero word read at the extended reals (it is 0; the proofs never need to know). -/
abbrev zeroWord : EReal := Ideal.ofBits .f32 0x00000000#32

/-- X·W at row r and column c is the sum over l of X r l · W l c. -/
def matProd {n k m : Nat} (X : (⟨2, ![n, k]⟩ : Shape).Idx → EReal) (W : (⟨2, ![k, m]⟩ : Shape).Idx → EReal) :
    (⟨2, ![n, m]⟩ : Shape).Idx → EReal :=
  fun i => ∑ l : Fin k, X (ix2 (i 0) l) * W (ix2 l (i 1))

/-- The bias b added to every row of A. -/
def addRow {n m : Nat} (A : (⟨2, ![n, m]⟩ : Shape).Idx → EReal) (b : (⟨1, ![m]⟩ : Shape).Idx → EReal) :
    (⟨2, ![n, m]⟩ : Shape).Idx → EReal :=
  fun i => A i + b (ix1 (i 1))

/-- The rectifier: the larger of each entry and the zero word. -/
def relu {n m : Nat} (A : (⟨2, ![n, m]⟩ : Shape).Idx → EReal) : (⟨2, ![n, m]⟩ : Shape).Idx → EReal :=
  fun i => max (A i) zeroWord

/-- The classifier head on node features H: rectifier, product with W1, bias b1, rectifier, product with W2, bias b2. -/
def head {n : Nat} (H : (⟨2, ![n, 128]⟩ : Shape).Idx → EReal) (W1 : (⟨2, ![128, 64]⟩ : Shape).Idx → EReal)
    (b1 : (⟨1, ![64]⟩ : Shape).Idx → EReal) (W2 : (⟨2, ![64, 4]⟩ : Shape).Idx → EReal) (b2 : (⟨1, ![4]⟩ : Shape).Idx → EReal) :
    (⟨2, ![n, 4]⟩ : Shape).Idx → EReal :=
  addRow (matProd (relu (addRow (matProd (relu H) W1) b1)) W2) b2

theorem matProd_apply {n k m : Nat} (X : (⟨2, ![n, k]⟩ : Shape).Idx → EReal) (W : (⟨2, ![k, m]⟩ : Shape).Idx → EReal)
    (r : Fin n) (c : Fin m) : matProd X W (ix2 r c) = ∑ l : Fin k, X (ix2 r l) * W (ix2 l c) := rfl

theorem addRow_apply {n m : Nat} (A : (⟨2, ![n, m]⟩ : Shape).Idx → EReal) (b : (⟨1, ![m]⟩ : Shape).Idx → EReal)
    (r : Fin n) (c : Fin m) : addRow A b (ix2 r c) = A (ix2 r c) + b (ix1 c) := rfl

theorem relu_apply {n m : Nat} (A : (⟨2, ![n, m]⟩ : Shape).Idx → EReal) (r : Fin n) (c : Fin m) :
    relu A (ix2 r c) = max (A (ix2 r c)) zeroWord := rfl

/-- The head at row r and column c, written out. -/
theorem head_apply {n : Nat} (H : (⟨2, ![n, 128]⟩ : Shape).Idx → EReal) (W1 : (⟨2, ![128, 64]⟩ : Shape).Idx → EReal)
    (b1 : (⟨1, ![64]⟩ : Shape).Idx → EReal) (W2 : (⟨2, ![64, 4]⟩ : Shape).Idx → EReal) (b2 : (⟨1, ![4]⟩ : Shape).Idx → EReal)
    (r : Fin n) (c : Fin 4) :
    head H W1 b1 W2 b2 (ix2 r c)
      = (∑ l2 : Fin 64, max ((∑ l1 : Fin 128, max (H (ix2 r l1)) zeroWord * W1 (ix2 l1 l2)) + b1 (ix1 l2)) zeroWord * W2 (ix2 l2 c))
        + b2 (ix1 c) := rfl

end Cert.Gcn

end
-- ==== Proof.RegionMatmul.lean ====
/-
  The two row-blocked matrix products of the graph network, read as whole arrays.

  Each product runs over the 100000 node rows in 50 blocks of 2000 rows.  At grid point t the left
  operand's window holds rows 2000 t … 2000 t + 1999 of the node-feature array, the right operand's
  window holds the whole weight array, and the body stores into the output window the product of
  the two blocks: entry (p, q) is the sum over the inner index l of X p l · W l q (narrowing the
  operands to bf16 is the identity on the extended reals, and the product accumulates from zero).
  That block is written back to rows 2000 t … 2000 t + 1999 of the output array.  Since row r of a
  product depends only on row r of the left operand, block t of the product of the whole arrays is
  the product of block t with the weights; and every row r lies in the block of point r / 2000.
  Hence after the region the output array is the product of the two whole arrays.  Only
  re-indexing of finite sums is used: no law that would need finiteness of the entries.
-/
import proofs.«147668_j2740189135665_1_alg».proof.Proof.Gen.KernelIdeal.Frame
import proofs.«147668_j2740189135665_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.RegionValue
open Idealize.ShloMosaic Idealize.ShloMosaic.TcCoe Idealize.SL.Sem Cert.KernelIdeal Cert.KernelIdeal.Gen
open Idealize.ShloMosaic.ValueIdx

/-! ## The first product: [100000, 518] · [518, 128] -/

/-- Both axis offsets of a whole-block access are zero. -/
theorem hz : (![0, 0] : Fin 2 → Nat) = fun _ => 0 := funext fun a => by fin_cases a <;> rfl

/-- The first product's body on one block of rows: entry (p, q) of what it stores is the sum over the inner
    index l of X p l · W l q.  Narrowing to bf16 is the identity on the extended reals, and the accumulator
    the product starts from is zero. -/
theorem pay0_apply (x0 : Vec Idealize.ShloMosaic.Ideal S2000x518 .f32) (x1 : Vec Idealize.ShloMosaic.Ideal S518x128 .f32)
    (p : Fin 2000) (q : Fin 128) :
    Gen.k0_pay1 (F := Idealize.ShloMosaic.Ideal) x0 x1 (ix2 p q) = ∑ l : Fin 518, x0 (ix2 p l) * x1 (ix2 l q) := by
  unfold Gen.k0_pay1
  refine (Ideal.matmul_constant_zero_apply dot_S2000x518_S518x128_S2000x128_1_0_0_1_n_n none _ _ (ix2 p q)).trans ?_
  rw [← Equiv.sum_comp (contrEquiv1 dot_S2000x518_S518x128_S2000x128_1_0_0_1_n_n 518 rfl rfl).symm]
  refine Finset.sum_congr rfl fun l _ => ?_
  have c2 := contrEquiv1_symm_val dot_S2000x518_S518x128_S2000x128_1_0_0_1_n_n 518 rfl rfl l
  have l2 : dot_S2000x518_S518x128_S2000x128_1_0_0_1_n_n.lhsIdx (ix2 p q) ((contrEquiv1 _ 518 rfl rfl).symm l) = ix2 p l := by
    funext ax; apply Fin.ext
    match ax with
    | ⟨0, _⟩ => simp [DotDims.lhsIdx, dot_S2000x518_S518x128_S2000x128_1_0_0_1_n_n]; rfl
    | ⟨1, _⟩ => simp [DotDims.lhsIdx, dot_S2000x518_S518x128_S2000x128_1_0_0_1_n_n]; exact c2
  have r2 : dot_S2000x518_S518x128_S2000x128_1_0_0_1_n_n.rhsIdx (ix2 p q) ((contrEquiv1 _ 518 rfl rfl).symm l) = ix2 l q := by
    funext ax; apply Fin.ext
    match ax with
    | ⟨0, _⟩ => simp [DotDims.rhsIdx, dot_S2000x518_S518x128_S2000x128_1_0_0_1_n_n]; exact c2
    | ⟨1, _⟩ => simp [DotDims.rhsIdx, dot_S2000x518_S518x128_S2000x128_1_0_0_1_n_n]; rfl
  rw [l2, r2]
  rfl

section Region0
variable (V : (c : Dev nD) → (b : Ref sig .tc) → Buf (Elt Idealize.ShloMosaic.Ideal) ((c : Thread nD τ).loc b))

/-- The printed index maps over the grid: at point t the row-blocked windows sit at block (t, 0), the weight
    window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, l) of the left operand's block at point t is entry (2000 t + p, l) of the array. -/
theorem lhs0_apply (c : Dev nD) (t : Fin cfg0.N) (p : Fin 2000) (l : Fin 518) (r : Fin 100000)
    (hr : r.val = t.val * 2000 + p.val) :
    (Gen.iblk0 V c 0 t : Vec Idealize.ShloMosaic.Ideal S2000x518 .f32) (ix2 p l)
      = (V c main_arg0 : S100000x518.Idx → EReal) (ix2 r l) := by
  obtain ⟨e0, e1, -, -, -, -⟩ := idx0 t
  unfold Gen.iblk0
  show (V c main_arg0 : S100000x518.Idx → EReal) (((cfg0.win 0).blk t).view.emb (ix2 p l)) = _
  refine congrArg (V c main_arg0 : S100000x518.Idx → EReal) ?_
  funext a; apply Fin.ext
  match a with
  | ⟨0, _⟩ => show win0_0.index t (0 : Fin 2) * 2000 + 1 * p.val = r.val; omega
  | ⟨1, _⟩ => show win0_0.index t (1 : Fin 2) * 518 + 1 * l.val = l.val; omega

/-- The right operand's block at every point is the whole weight array. -/
theorem rhs0_apply (c : Dev nD) (t : Fin cfg0.N) (l : Fin 518) (q : Fin 128) :
    (Gen.iblk0 V c 1 t : Vec Idealize.ShloMosaic.Ideal S518x128 .f32) (ix2 l q)
      = (V c main_arg2 : S518x128.Idx → EReal) (ix2 l q) := by
  obtain ⟨-, -, e2, e3, -, -⟩ := idx0 t
  unfold Gen.iblk0
  show (V c main_arg2 : S518x128.Idx → EReal) (((cfg0.win 1).blk t).view.emb (ix2 l q)) = _
  refine congrArg (V c main_arg2 : S518x128.Idx → EReal) ?_
  funext a; apply Fin.ext
  match a with
  | ⟨0, _⟩ => show win0_1.index t (0 : Fin 2) * 518 + 1 * l.val = l.val; omega
  | ⟨1, _⟩ => show win0_1.index t (1 : Fin 2) * 128 + 1 * q.val = q.val; omega

/-- What point t writes back is block t of the product of the two arrays as the region finds them. -/
theorem flushed0_eq (c : Dev nD) (t : Fin cfg0.N) :
    (Gen.dat0 (F := Idealize.ShloMosaic.Ideal) V c).flushed 2 t
      = ((cfg0.win 2).blk t).view.read (Elt Idealize.ShloMosaic.Ideal)
          (Cert.Gcn.matProd (n := 100000) (k := 518) (m := 128) (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S2000x518) hz, View.ld_unit_zero (S := S518x128) hz]
  obtain ⟨-, -, -, -, e4, e5⟩ := idx0 t
  funext j
  obtain ⟨p, q, rfl⟩ : ∃ (p : Fin 2000) (q : Fin 128), j = ix2 p q := ⟨j 0, j 1, eq_ix2 j⟩
  have ht : t.val < 50 := Nat.lt_of_lt_of_eq t.isLt Gen.N_0
  have hp : p.val < 2000 := p.isLt
  have he : ((cfg0.win 2).blk t).view.emb (ix2 p q) = (ix2 (⟨t.val * 2000 + p.val, by omega⟩ : Fin 100000) q : S100000x128.Idx) := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show Gen.k0_pay1 (F := Idealize.ShloMosaic.Ideal) (Gen.iblk0 V c 0 t) (Gen.iblk0 V c 1 t) (ix2 p q)
      = Cert.Gcn.matProd (n := 100000) (k := 518) (m := 128) (V c main_arg0) (V c main_arg2) (((cfg0.win 2).blk t).view.emb (ix2 p q))
  rw [he, Cert.Gcn.matProd_apply]
  refine (pay0_apply _ _ p q).trans ?_
  refine Finset.sum_congr rfl fun l _ => ?_
  rw [lhs0_apply V c t p l ⟨t.val * 2000 + p.val, by omega⟩ rfl, rhs0_apply V c t l q]

/-- An index of the output array is in point t's block iff each coordinate is in the block's range. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row r of the output lies in the block of point r / 2000. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 50 := Gen.N_0
  refine ⟨⟨(i 0).val / 2000, by rw [hN]; omega⟩, Gen.flush0_2 _, ?_⟩
  rw [mem_blk0]
  obtain ⟨-, -, -, -, e4, e5⟩ := idx0 ⟨(i 0).val / 2000, by rw [hN]; omega⟩
  intro a
  match a with
  | ⟨0, _⟩ =>
    show win0_2.index ⟨(i 0).val / 2000, _⟩ (0 : Fin 2) * 2000 ≤ (i 0).val ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 128 ≤ (i 1).val ∧ (i 1).val < win0_2.index ⟨(i 0).val / 2000, _⟩ (1 : Fin 2) * 128 + 128
    rw [e5]; omega

end Region0

/-- After the first region the output array holds the product of the node features with the first weights. -/
theorem final0 (V : (c : Dev nD) → (b : Ref sig .tc) → Buf (Elt Idealize.ShloMosaic.Ideal) ((c : Thread nD τ).loc b)) (c : Dev nD) :
    (Gen.dat0 (F := Idealize.ShloMosaic.Ideal) V c).arrAt 2 cfg0.N
      = Cert.Gcn.matProd (n := 100000) (k := 518) (m := 128) (V c main_arg0) (V c main_arg2) :=
  (Gen.dat0 (F := Idealize.ShloMosaic.Ideal) V c).arrAt_eq_of_cover 2 _ (fun t _ => flushed0_eq V c t) cover0

/-! ## The second product: [100000, 128] · [128, 128] -/

/-- The second product's body on one block of rows: entry (p, q) of what it stores is the sum over the inner
    index l of X p l · W l q.  The reshape to the same shape and the narrowing to bf16 are identities, and
    the accumulator the product starts from is zero. -/
theorem pay1_apply (x0 : Vec Idealize.ShloMosaic.Ideal S2000x128 .f32) (x1 : Vec Idealize.ShloMosaic.Ideal S128x128 .f32)
    (p : Fin 2000) (q : Fin 128) :
    Gen.k1_pay1 (F := Idealize.ShloMosaic.Ideal) x0 x1 (ix2 p q) = ∑ l : Fin 128, x0 (ix2 p l) * x1 (ix2 l q) := by
  have hs : shapeCast S2000x128 x0 shapeCasts_S2000x128_S2000x128 = x0 := shapeCast_self _ _
  unfold Gen.k1_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun l _ => ?_
  have c2 := contrEquiv1_symm_val dot_S2000x128_S128x128_S2000x128_1_0_0_1_n_n 128 rfl rfl l
  have l2 : dot_S2000x128_S128x128_S2000x128_1_0_0_1_n_n.lhsIdx (ix2 p q) ((contrEquiv1 _ 128 rfl rfl).symm l) = ix2 p l := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm l) = ix2 l q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]
  show (shapeCast S2000x128 x0 shapeCasts_S2000x128_S2000x128) (ix2 p l) * x1 (ix2 l q) = _
  rw [hs]

section Region1
variable (V : (c : Dev nD) → (b : Ref sig .tc) → Buf (Elt Idealize.ShloMosaic.Ideal) ((c : Thread nD τ).loc b))

/-- The printed index maps over the grid: at point t the row-blocked windows sit at block (t, 0), the weight
    window at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, l) of the left operand's block at point t is entry (2000 t + p, l) of the array. -/
theorem lhs1_apply (c : Dev nD) (t : Fin cfg1.N) (p : Fin 2000) (l : Fin 128) (r : Fin 100000)
    (hr : r.val = t.val * 2000 + p.val) :
    (Gen.iblk1 V c 0 t : Vec Idealize.ShloMosaic.Ideal S2000x128 .f32) (ix2 p l)
      = (V c main_v48 : S100000x128.Idx → EReal) (ix2 r l) := by
  obtain ⟨e0, e1, -, -, -, -⟩ := idx1 t
  unfold Gen.iblk1
  show (V c main_v48 : S100000x128.Idx → EReal) (((cfg1.win 0).blk t).view.emb (ix2 p l)) = _
  refine congrArg (V c main_v48 : S100000x128.Idx → EReal) ?_
  funext a; apply Fin.ext
  match a with
  | ⟨0, _⟩ => show win1_0.index t (0 : Fin 2) * 2000 + 1 * p.val = r.val; omega
  | ⟨1, _⟩ => show win1_0.index t (1 : Fin 2) * 128 + 1 * l.val = l.val; omega

/-- The right operand's block at every point is the whole weight array. -/
theorem rhs1_apply (c : Dev nD) (t : Fin cfg1.N) (l : Fin 128) (q : Fin 128) :
    (Gen.iblk1 V c 1 t : Vec Idealize.ShloMosaic.Ideal S128x128 .f32) (ix2 l q)
      = (V c main_arg4 : S128x128.Idx → EReal) (ix2 l q) := by
  obtain ⟨-, -, e2, e3, -, -⟩ := idx1 t
  unfold Gen.iblk1
  show (V c main_arg4 : S128x128.Idx → EReal) (((cfg1.win 1).blk t).view.emb (ix2 l q)) = _
  refine congrArg (V c main_arg4 : S128x128.Idx → EReal) ?_
  funext a; apply Fin.ext
  match a with
  | ⟨0, _⟩ => show win1_1.index t (0 : Fin 2) * 128 + 1 * l.val = l.val; omega
  | ⟨1, _⟩ => show win1_1.index t (1 : Fin 2) * 128 + 1 * q.val = q.val; omega

/-- What point t writes back is block t of the product of the two arrays as the region finds them. -/
theorem flushed1_eq (c : Dev nD) (t : Fin cfg1.N) :
    (Gen.dat1 (F := Idealize.ShloMosaic.Ideal) V c).flushed 2 t
      = ((cfg1.win 2).blk t).view.read (Elt Idealize.ShloMosaic.Ideal)
          (Cert.Gcn.matProd (n := 100000) (k := 128) (m := 128) (V c main_v48) (V c main_arg4)) := by
  show (cfg1.win 2).cut (grid1.coords t) ((Gen.dat1 V c).after 2 t) = _
  rw [Gen.after1_2]
  unfold Gen.out1_2
  rw [View.canon_unit_zero hz]
  simp only [View.ld_unit_zero (S := S2000x128) hz, View.ld_unit_zero (S := S128x128) hz]
  obtain ⟨-, -, -, -, e4, e5⟩ := idx1 t
  funext j
  obtain ⟨p, q, rfl⟩ : ∃ (p : Fin 2000) (q : Fin 128), j = ix2 p q := ⟨j 0, j 1, eq_ix2 j⟩
  have ht : t.val < 50 := Nat.lt_of_lt_of_eq t.isLt Gen.N_1
  have hp : p.val < 2000 := p.isLt
  have he : ((cfg1.win 2).blk t).view.emb (ix2 p q) = (ix2 (⟨t.val * 2000 + p.val, by omega⟩ : Fin 100000) q : S100000x128.Idx) := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  show Gen.k1_pay1 (F := Idealize.ShloMosaic.Ideal) (Gen.iblk1 V c 0 t) (Gen.iblk1 V c 1 t) (ix2 p q)
      = Cert.Gcn.matProd (n := 100000) (k := 128) (m := 128) (V c main_v48) (V c main_arg4) (((cfg1.win 2).blk t).view.emb (ix2 p q))
  rw [he, Cert.Gcn.matProd_apply]
  refine (pay1_apply _ _ p q).trans ?_
  refine Finset.sum_congr rfl fun l _ => ?_
  rw [lhs1_apply V c t p l ⟨t.val * 2000 + p.val, by omega⟩ rfl, rhs1_apply V c t l q]

/-- An index of the output array is in point t's block iff each coordinate is in the block's range. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Every row r of the output lies in the block of point r / 2000. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 50 := Gen.N_1
  refine ⟨⟨(i 0).val / 2000, by rw [hN]; omega⟩, Gen.flush1_2 _, ?_⟩
  rw [mem_blk1]
  obtain ⟨-, -, -, -, e4, e5⟩ := idx1 ⟨(i 0).val / 2000, by rw [hN]; omega⟩
  intro a
  match a with
  | ⟨0, _⟩ =>
    show win1_2.index ⟨(i 0).val / 2000, _⟩ (0 : Fin 2) * 2000 ≤ (i 0).val ∧ (i 0).val < win1_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, _⟩ (1 : Fin 2) * 128 ≤ (i 1).val ∧ (i 1).val < win1_2.index ⟨(i 0).val / 2000, _⟩ (1 : Fin 2) * 128 + 128
    rw [e5]; omega

end Region1

/-- After the second region the output array holds the product of the aggregated features with the second weights. -/
theorem final1 (V : (c : Dev nD) → (b : Ref sig .tc) → Buf (Elt Idealize.ShloMosaic.Ideal) ((c : Thread nD τ).loc b)) (c : Dev nD) :
    (Gen.dat1 (F := Idealize.ShloMosaic.Ideal) V c).arrAt 2 cfg1.N
      = Cert.Gcn.matProd (n := 100000) (k := 128) (m := 128) (V c main_v48) (V c main_arg4) :=
  (Gen.dat1 (F := Idealize.ShloMosaic.Ideal) V c).arrAt_eq_of_cover 2 _ (fun t _ => flushed1_eq V c t) cover1

end Cert.KernelIdeal.RegionValue
end
-- ==== Proof.RegionHead.lean ====
/-
  The classifier head, from blocks of rows to the whole array.

  The region walks the 100000 rows of the node-feature array in fifty blocks of 2000 rows.  At each block it
  takes the rectifier of the features, multiplies by the 128 × 64 weights, adds the first bias to every row,
  takes the rectifier again, multiplies by the 64 × 4 weights and adds the second bias; the weights and the
  biases are whole arrays at every block.  On the extended reals a change of float format is the identity and
  a product into a zero accumulator is the plain sum over the inner index, so what the body computes on a
  block is the head of that block, entry by entry (`pay_eq_head`).  Each row of the head depends on the same
  row of the features only (`head_row_local`), and row p of block t is row 2000 t + p of the array, so what
  block t writes back is block t of the head of the whole array (`flushed_eq`).  The fifty blocks cover every
  row (`result_covered`: row r lies in block r / 2000), hence the result array ends as the head of the whole
  feature array (`final2`).
-/
import proofs.«147668_j2740189135665_1_alg».proof.Proof.Gen.KernelIdeal.Frame
import proofs.«147668_j2740189135665_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.RegionValue
open Idealize.ShloMosaic Idealize.ShloMosaic.TcCoe Idealize.SL.Sem Cert.KernelIdeal Cert.KernelIdeal.Gen
open Idealize.ShloMosaic.ValueIdx

namespace Head

/-- The first product of the head: a block of 2000 rows with 128 features times the 128 × 64 weights, into the
    zero accumulator, at row p and column q is the sum over the inner index l of A p l · B l q. -/
theorem prod1_apply (A : FVec Idealize.ShloMosaic.Ideal S2000x128 .bf16) (B : FVec Idealize.ShloMosaic.Ideal S128x64 .bf16)
    (p : Fin 2000) (q : Fin 64) :
    matmul dot_S2000x128_S128x64_S2000x64_1_0_0_1_n_n none A B (constant S2000x64 .f32 0x00000000#32) (ix2 p q)
      = ∑ l : Fin 128, A (ix2 p l) * B (ix2 l q) := by
  show FloatOps.matmul _ none A B _ (ix2 p q) = _
  rw [Ideal.matmul_constant_zero_apply,
    ← Equiv.sum_comp (contrEquiv1 dot_S2000x128_S128x64_S2000x64_1_0_0_1_n_n 128 rfl rfl).symm]
  refine Finset.sum_congr rfl fun l _ => ?_
  have c2 := contrEquiv1_symm_val dot_S2000x128_S128x64_S2000x64_1_0_0_1_n_n 128 rfl rfl l
  have l2 : dot_S2000x128_S128x64_S2000x64_1_0_0_1_n_n.lhsIdx (ix2 p q) ((contrEquiv1 _ 128 rfl rfl).symm l) = ix2 p l := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact c2
  have r2 : dot_S2000x128_S128x64_S2000x64_1_0_0_1_n_n.rhsIdx (ix2 p q) ((contrEquiv1 _ 128 rfl rfl).symm l) = ix2 l q := by
    funext ax; apply Fin.ext
    match ax with
    | ⟨0, _⟩ => simp [DotDims.rhsIdx, dot_S2000x128_S128x64_S2000x64_1_0_0_1_n_n]; exact c2
    | ⟨1, _⟩ => simp [DotDims.rhsIdx, dot_S2000x128_S128x64_S2000x64_1_0_0_1_n_n]; rfl
  rw [l2, r2]

/-- The second product of the head: a block of 2000 rows with 64 hidden features times the 64 × 4 weights, into
    the zero accumulator, at row p and column q is the sum over the inner index l of A p l · B l q. -/
theorem prod2_apply (A : FVec Idealize.ShloMosaic.Ideal S2000x64 .bf16) (B : FVec Idealize.ShloMosaic.Ideal S64x4 .bf16)
    (p : Fin 2000) (q : Fin 4) :
    matmul dot_S2000x64_S64x4_S2000x4_1_0_0_1_n_n none A B (constant S2000x4 .f32 0x00000000#32) (ix2 p q)
      = ∑ l : Fin 64, A (ix2 p l) * B (ix2 l q) := by
  show FloatOps.matmul _ none A B _ (ix2 p q) = _
  rw [Ideal.matmul_constant_zero_apply,
    ← Equiv.sum_comp (contrEquiv1 dot_S2000x64_S64x4_S2000x4_1_0_0_1_n_n 64 rfl rfl).symm]
  refine Finset.sum_congr rfl fun l _ => ?_
  have c2 := contrEquiv1_symm_val dot_S2000x64_S64x4_S2000x4_1_0_0_1_n_n 64 rfl rfl l
  have l2 : dot_S2000x64_S64x4_S2000x4_1_0_0_1_n_n.lhsIdx (ix2 p q) ((contrEquiv1 _ 64 rfl rfl).symm l) = ix2 p l := by
    funext ax; apply Fin.ext
    match ax with
    | ⟨0, _⟩ => simp [DotDims.lhsIdx, dot_S2000x64_S64x4_S2000x4_1_0_0_1_n_n]; rfl
    | ⟨1, _⟩ => simp [DotDims.lhsIdx, dot_S2000x64_S64x4_S2000x4_1_0_0_1_n_n]; exact c2
  have r2 : dot_S2000x64_S64x4_S2000x4_1_0_0_1_n_n.rhsIdx (ix2 p q) ((contrEquiv1 _ 64 rfl rfl).symm l) = ix2 l q := by
    funext ax; apply Fin.ext
    match ax with
    | ⟨0, _⟩ => simp [DotDims.rhsIdx, dot_S2000x64_S64x4_S2000x4_1_0_0_1_n_n]; exact c2
    | ⟨1, _⟩ => simp [DotDims.rhsIdx, dot_S2000x64_S64x4_S2000x4_1_0_0_1_n_n]; rfl
  rw [l2, r2]

/-- The first bias, a vector of 64 entries viewed as one row and repeated over the 2000 rows of a block, reads
    its entry q at every row. -/
theorem bias1_apply (b : Vec Idealize.ShloMosaic.Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply _ broadcasts_S1x64_S2000x64 p q).trans (shapeCast_a_1a_apply b shapeCasts_S64_S1x64 0 q)

/-- The second bias, a vector of 4 entries, likewise. -/
theorem bias2_apply (b : Vec Idealize.ShloMosaic.Ideal S4 .f32) (p : Fin 2000) (q : Fin 4) :
    broadcastTo S2000x4 (shapeCast S1x4 b shapeCasts_S4_S1x4) broadcasts_S1x4_S2000x4 (ix2 p q) = b (ix1 q) :=
  (broadcastTo_1b_ab_apply _ broadcasts_S1x4_S2000x4 p q).trans (shapeCast_a_1a_apply b shapeCasts_S4_S1x4 0 q)

/-- The body's payload is the head of its block of rows, entry by entry: the two rectifiers, the two products
    into a zero accumulator and the two biases repeated over the rows, in the head's order; the changes of
    float format are the identity on the extended reals. -/
theorem pay_eq_head (x0 : Vec Idealize.ShloMosaic.Ideal S2000x128 .f32) (x1 : Vec Idealize.ShloMosaic.Ideal S128x64 .f32)
    (x2 : Vec Idealize.ShloMosaic.Ideal S64 .f32) (x3 : Vec Idealize.ShloMosaic.Ideal S64x4 .f32)
    (x4 : Vec Idealize.ShloMosaic.Ideal S4 .f32) (p : Fin 2000) (q : Fin 4) :
    Gen.k2_pay1 x0 x1 x2 x3 x4 (ix2 p q) = Cert.Gcn.head (n := 2000) x0 x1 x2 x3 x4 (ix2 p q) := by
  rw [Cert.Gcn.head_apply]
  unfold Gen.k2_pay1
  rw [addf_apply, prod2_apply, bias2_apply]
  refine congrArg (· + x4 (ix1 q)) (Finset.sum_congr rfl fun l2 _ => ?_)
  rw [truncf_apply, truncf_apply, maximumf_apply, addf_apply, prod1_apply, bias1_apply, broadcast_apply]
  refine congrArg (fun z => max (z + x2 (ix1 l2)) _ * x3 (ix2 l2 q)) (Finset.sum_congr rfl fun l1 _ => ?_)
  rw [truncf_apply, truncf_apply, maximumf_apply, shapeCast_self, broadcast_apply]
  rfl

/-! ## From blocks of rows to the whole array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The head of the whole node-feature array as the region finds it. -/
abbrev headOf (V : (c : Dev nD) → (b : Ref sig .tc) → Buf (Elt Idealize.ShloMosaic.Ideal) ((c : Thread nD τ).loc b)) (c : Dev nD) :
    (⟨2, ![100000, 4]⟩ : Shape).Idx → EReal :=
  Cert.Gcn.head (n := 100000) (V c main_v65) (V c main_arg6) (V c main_arg7) (V c main_arg8) (V c main_arg9)

/-- Where the blocks sit: at grid point t the feature block and the result block are block t of their arrays'
    rows (all columns); the weights and biases are whole arrays at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Idealize.ShloMosaic.Ideal) ((c : Thread nD τ).loc b)) (c : Dev nD)

/-- Row p of the feature block at point t is row 2000 t + p of the feature array. -/
theorem feature_block_apply (t : Fin cfg2.N) (p : Fin 2000) (l : Fin 128) (r : Fin 100000) (hr : r.val = 2000 * t.val + p.val) :
    (Gen.iblk2 (F := Idealize.ShloMosaic.Ideal) V c 0 t : Vec Idealize.ShloMosaic.Ideal S2000x128 .f32) (ix2 p l)
      = (V c main_v65 : S100000x128.Idx → EReal) (ix2 r l) := by
  obtain ⟨e0, e1, -⟩ := block_indices t
  unfold Gen.iblk2
  rw [View.read_apply]
  show V c main_v65 (((cfg2.win 0).blk t).view.emb (ix2 p l)) = V c main_v65 (ix2 r l)
  refine congrArg (V c main_v65) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * l.val = l.val; rw [e1]; omega

/-- The first weights' block is the whole array at every point. -/
theorem weights1_block (t : Fin cfg2.N) :
    (Gen.iblk2 (F := Idealize.ShloMosaic.Ideal) V c 1 t : Vec Idealize.ShloMosaic.Ideal S128x64 .f32) = (V c main_arg6 : S128x64.Idx → EReal) := by
  obtain ⟨-, -, e0, e1, -⟩ := block_indices t
  unfold Gen.iblk2
  funext y
  rw [View.read_apply]
  show V c main_arg6 (((cfg2.win 1).blk t).view.emb y) = V c main_arg6 y
  refine congrArg (V c main_arg6) (funext fun a => Fin.ext ?_)
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega
end Blocks

section Blocks2
variable (V : (c : Dev nD) → (b : Ref sig .tc) → Buf (Elt Idealize.ShloMosaic.Ideal) ((c : Thread nD τ).loc b)) (c : Dev nD)

/-- The first bias's block is the whole vector at every point. -/
theorem bias1_block (t : Fin cfg2.N) :
    (Gen.iblk2 (F := Idealize.ShloMosaic.Ideal) V c 2 t : Vec Idealize.ShloMosaic.Ideal S64 .f32) = (V c main_arg7 : S64.Idx → EReal) := by
  obtain ⟨-, -, -, -, e0, -⟩ := block_indices t
  unfold Gen.iblk2
  funext y
  rw [View.read_apply]
  show V c main_arg7 (((cfg2.win 2).blk t).view.emb y) = V c main_arg7 y
  refine congrArg (V c main_arg7) (funext fun a => Fin.ext ?_)
  match a with
  | ⟨0, _⟩ => show win2_2.index t (0 : Fin 1) * 64 + 1 * (y 0).val = (y 0).val; rw [e0]; omega

/-- The second weights' block is the whole array at every point. -/
theorem weights2_block (t : Fin cfg2.N) :
    (Gen.iblk2 (F := Idealize.ShloMosaic.Ideal) V c 3 t : Vec Idealize.ShloMosaic.Ideal S64x4 .f32) = (V c main_arg8 : S64x4.Idx → EReal) := by
  obtain ⟨-, -, -, -, -, e0, e1, -⟩ := block_indices t
  unfold Gen.iblk2
  funext y
  rw [View.read_apply]
  show V c main_arg8 (((cfg2.win 3).blk t).view.emb y) = V c main_arg8 y
  refine congrArg (V c main_arg8) (funext fun a => Fin.ext ?_)
  match a with
  | ⟨0, _⟩ => show win2_3.index t (0 : Fin 2) * 64 + 1 * (y 0).val = (y 0).val; rw [e0]; omega
  | ⟨1, _⟩ => show win2_3.index t (1 : Fin 2) * 4 + 1 * (y 1).val = (y 1).val; rw [e1]; omega

/-- The second bias's block is the whole vector at every point. -/
theorem bias2_block (t : Fin cfg2.N) :
    (Gen.iblk2 (F := Idealize.ShloMosaic.Ideal) V c 4 t : Vec Idealize.ShloMosaic.Ideal S4 .f32) = (V c main_arg9 : S4.Idx → EReal) := by
  obtain ⟨-, -, -, -, -, -, -, e0, -⟩ := block_indices t
  unfold Gen.iblk2
  funext y
  rw [View.read_apply]
  show V c main_arg9 (((cfg2.win 4).blk t).view.emb y) = V c main_arg9 y
  refine congrArg (V c main_arg9) (funext fun a => Fin.ext ?_)
  match a with
  | ⟨0, _⟩ => show win2_4.index t (0 : Fin 1) * 4 + 1 * (y 0).val = (y 0).val; rw [e0]; omega

/-- Entry (p, q) of the result block at point t sits at (2000 t + p, q) in the result array. -/
theorem result_block_emb (t : Fin cfg2.N) (p : Fin 2000) (q : Fin 4) (r : Fin 100000) (hr : r.val = 2000 * t.val + p.val) :
    (((cfg2.win 5).blk t).view.emb (ix2 p q) : S100000x4.Idx) = ix2 r q := by
  obtain ⟨-, -, -, -, -, -, -, -, e0, e1⟩ := block_indices t
  refine funext fun a => Fin.ext ?_
  match a with
  | ⟨0, _⟩ => show win2_5.index t (0 : Fin 2) * 2000 + 1 * p.val = r.val; rw [e0, hr]; omega
  | ⟨1, _⟩ => show win2_5.index t (1 : Fin 2) * 4 + 1 * q.val = q.val; rw [e1]; omega
end Blocks2

/-- The head is row-local: a row of the head depends on the same row of the features only, so the head of a
    block of rows, at a row that is row r of the whole array, is the head of the whole array at row r. -/
theorem head_row_local (H : (⟨2, ![100000, 128]⟩ : Shape).Idx → EReal) (X : (⟨2, ![2000, 128]⟩ : Shape).Idx → EReal)
    (W1 : (⟨2, ![128, 64]⟩ : Shape).Idx → EReal) (b1 : (⟨1, ![64]⟩ : Shape).Idx → EReal)
    (W2 : (⟨2, ![64, 4]⟩ : Shape).Idx → EReal) (b2 : (⟨1, ![4]⟩ : Shape).Idx → EReal)
    (p : Fin 2000) (r : Fin 100000) (hX : ∀ l : Fin 128, X (ix2 p l) = H (ix2 r l)) (q : Fin 4) :
    Cert.Gcn.head (n := 2000) X W1 b1 W2 b2 (ix2 p q) = Cert.Gcn.head (n := 100000) H W1 b1 W2 b2 (ix2 r q) := by
  rw [Cert.Gcn.head_apply, Cert.Gcn.head_apply]
  simp only [hX]

section Final
variable (V : (c : Dev nD) → (b : Ref sig .tc) → Buf (Elt Idealize.ShloMosaic.Ideal) ((c : Thread nD τ).loc b)) (c : Dev nD)

/-- What the body leaves at point t, entry by entry: the head of the whole array at the entry's place. -/
theorem body_result_apply (t : Fin cfg2.N) (j : S2000x4.Idx) :
    Gen.k2_pay1 (Gen.iblk2 (F := Idealize.ShloMosaic.Ideal) V c 0 t) (V c main_arg6 : S128x64.Idx → EReal)
        (V c main_arg7 : S64.Idx → EReal) (V c main_arg8 : S64x4.Idx → EReal) (V c main_arg9 : S4.Idx → EReal) j
      = headOf V c (((cfg2.win 5).blk t).view.emb j) := by
  obtain ⟨p, q, rfl⟩ : ∃ (p : Fin 2000) (q : Fin 4), j = ix2 p q := ⟨j 0, j 1, eq_ix2 j⟩
  have hN : cfg2.N = 50 := Gen.N_2
  have ht : t.val < 50 := hN ▸ t.isLt
  have hr : 2000 * t.val + p.val < 100000 := by have := p.isLt; omega
  rw [result_block_emb t p q ⟨2000 * t.val + p.val, hr⟩ rfl]
  refine (pay_eq_head _ _ _ _ _ p q).trans ?_
  exact head_row_local _ _ _ _ _ _ p ⟨2000 * t.val + p.val, hr⟩
    (fun l => feature_block_apply V c t p l ⟨2000 * t.val + p.val, hr⟩ rfl) q

/-- WHAT POINT t WRITES BACK is block t of the head of the whole feature array. -/
theorem flushed_eq (t : Fin cfg2.N) :
    (Gen.dat2 (F := Idealize.ShloMosaic.Ideal) V c).flushed 5 t
      = ((cfg2.win 5).blk t).view.read (Elt Idealize.ShloMosaic.Ideal) (headOf V c) := by
  show (cfg2.win 5).cut (grid2.coords t) ((Gen.dat2 (F := Idealize.ShloMosaic.Ideal) V c).after 5 t) = _
  rw [Gen.after2_5]
  unfold Gen.out2_5
  rw [View.canon_unit_zero zero_offsets2]
  simp only [View.ld_unit_zero (S := S2000x128) zero_offsets2, View.ld_unit_zero (S := S128x64) zero_offsets2,
    View.ld_unit_zero (S := S64) zero_offsets1, View.ld_unit_zero (S := S64x4) zero_offsets2,
    View.ld_unit_zero (S := S4) zero_offsets1]
  rw [weights1_block, bias1_block, weights2_block, bias2_block]
  funext j
  rw [View.read_apply]
  exact body_result_apply V c t j
end Final

/-- An index of the result array is under point t's block iff, on each axis, it lies in the block's range. -/
theorem mem_result_block (t : Fin cfg2.N) (i : S100000x4.Idx) :
    i ∈ ((cfg2.win 5).blk t).view.set ↔ ∀ a : Fin 2, win2_5.index t a * S2000x4.size a ≤ (i a).val
      ∧ (i a).val < win2_5.index t a * S2000x4.size a + S2000x4.size a := by
  show i ∈ ((View.whole main_v66).slice (win2_5.rect t)).set ↔ _
  rw [View.set_slice_whole, Rect.mem_set_unit]
  exact Iff.rfl

/-- The fifty blocks of 2000 rows cover the 100000 rows: row r is under the block of point r / 2000. -/
theorem result_covered (i : S100000x4.Idx) :
    ∃ t : Fin cfg2.N, (cfg2.win 5).flush t = true ∧ i ∈ ((cfg2.win 5).blk t).view.set := by
  have hN : cfg2.N = 50 := Gen.N_2
  have hi0 : (i 0).val < 100000 := (i 0).isLt
  have hi1 : (i 1).val < 4 := (i 1).isLt
  have ht : (i 0).val / 2000 < cfg2.N := by rw [hN]; omega
  obtain ⟨-, -, -, -, -, -, -, -, e0, e1⟩ := block_indices ⟨(i 0).val / 2000, ht⟩
  have e0' : win2_5.index ⟨(i 0).val / 2000, ht⟩ (0 : Fin 2) = (i 0).val / 2000 := e0
  refine ⟨⟨(i 0).val / 2000, ht⟩, Gen.flush2_5 _, ?_⟩
  rw [mem_result_block]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0']; omega
  | ⟨1, _⟩ =>
    show win2_5.index ⟨(i 0).val / 2000, ht⟩ (1 : Fin 2) * 4 ≤ (i 1).val
      ∧ (i 1).val < win2_5.index ⟨(i 0).val / 2000, ht⟩ (1 : Fin 2) * 4 + 4
    rw [e1]; omega

end Head

/-- THE RESULT ARRAY after the region: the head of the feature array the region found, with the weights and biases
    it found. -/
theorem final2 (V : (c : Dev nD) → (b : Ref sig .tc) → Buf (Elt Idealize.ShloMosaic.Ideal) ((c : Thread nD τ).loc b)) (c : Dev nD) :
    (Gen.dat2 (F := Idealize.ShloMosaic.Ideal) V c).arrAt 5 cfg2.N
      = Cert.Gcn.head (n := 100000) (V c main_v65) (V c main_arg6) (V c main_arg7) (V c main_arg8) (V c main_arg9) :=
  (Gen.dat2 (F := Idealize.ShloMosaic.Ideal) V c).arrAt_eq_of_cover 5 (Head.headOf V c) (fun t _ => Head.flushed_eq V c t) Head.result_covered

end Cert.KernelIdeal.RegionValue
end
-- ==== Proof.Net.lean ====
/-
  The whole network as one function of the ten argument arrays: the edge list with self loops gives every edge its
  source, destination and weight; two rounds of (dense product, message passing with bias) follow; the classifier
  head ends it.  Both programs compute this function on the extended reals.
-/
import proofs.«147668_j2740189135665_1_alg».proof.Proof.HostFn
import proofs.«147668_j2740189135665_1_alg».proof.Proof.Spec

noncomputable section

namespace Cert.Gcn

open Cert.KernelIdeal Idealize.ShloMosaic

variable [Cert.KernelIdeal.Facts₀]

/-- The source node of every edge of the list with self loops. -/
abbrev srcOf (e : (⟨S2x1600000, .i32⟩ : BufTy).Contents (Elt Ideal)) : (⟨S1700000, .i32⟩ : BufTy).Contents (Elt Ideal) :=
  HostFn.srcE (HostFn.edges e)
/-- The destination node of every edge of the list with self loops. -/
abbrev dstOf (e : (⟨S2x1600000, .i32⟩ : BufTy).Contents (Elt Ideal)) : (⟨S1700000, .i32⟩ : BufTy).Contents (Elt Ideal) :=
  HostFn.dstE (HostFn.edges e)
/-- The weight of every edge. -/
abbrev nrmOf (e : (⟨S2x1600000, .i32⟩ : BufTy).Contents (Elt Ideal)) : (⟨S1700000, .f32⟩ : BufTy).Contents (Elt Ideal) :=
  HostFn.normSD (srcOf e) (dstOf e)

/-- The first layer: features times weights, then message passing and bias. -/
def layer1 (x : (⟨S100000x518, .f32⟩ : BufTy).Contents (Elt Ideal)) (e : (⟨S2x1600000, .i32⟩ : BufTy).Contents (Elt Ideal))
    (w1 : (⟨S518x128, .f32⟩ : BufTy).Contents (Elt Ideal)) (b1 : (⟨S128, .f32⟩ : BufTy).Contents (Elt Ideal)) :
    (⟨S100000x128, .f32⟩ : BufTy).Contents (Elt Ideal) :=
  HostFn.agg (matProd (n := 100000) (k := 518) (m := 128) x w1) (srcOf e) (dstOf e) (nrmOf e) b1

/-- The second layer, on the first layer's result. -/
def layer2 (x : (⟨S100000x518, .f32⟩ : BufTy).Contents (Elt Ideal)) (e : (⟨S2x1600000, .i32⟩ : BufTy).Contents (Elt Ideal))
    (w1 : (⟨S518x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S100000x128, .f32⟩ : BufTy).Contents (Elt Ideal) :=
  HostFn.agg (matProd (n := 100000) (k := 128) (m := 128) (layer1 x e w1 b1) w2) (srcOf e) (dstOf e) (nrmOf e) b2

/-- The network: two layers and the classifier head. -/
def net (x : (⟨S100000x518, .f32⟩ : BufTy).Contents (Elt Ideal)) (e : (⟨S2x1600000, .i32⟩ : BufTy).Contents (Elt Ideal))
    (w1 : (⟨S518x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wm1 : (⟨S128x64, .f32⟩ : BufTy).Contents (Elt Ideal)) (bm1 : (⟨S64, .f32⟩ : BufTy).Contents (Elt Ideal))
    (wm2 : (⟨S64x4, .f32⟩ : BufTy).Contents (Elt Ideal)) (bm2 : (⟨S4, .f32⟩ : BufTy).Contents (Elt Ideal)) :
    (⟨S100000x4, .f32⟩ : BufTy).Contents (Elt Ideal) :=
  head (n := 100000) (layer2 x e w1 b1 w2 b2) wm1 bm1 wm2 bm2

end Cert.Gcn

end
-- ==== Proof.KernelValue.lean ====
/-
  The idealized kernel's result as the network function of its arguments.  The buffer contents at each boundary of
  the program are followed from the launch: the stretches before region 0 leave the edges' sources, destinations and
  weights; region 0 leaves features times weights; the next stretch one round of message passing; region 1 the
  second product; the next stretch the second round; region 2 the classifier head.  Arrays nobody writes in between
  are carried along unchanged.
-/
import proofs.«147668_j2740189135665_1_alg».proof.Proof.KernelRun
import proofs.«147668_j2740189135665_1_alg».proof.Proof.KernelHost
import proofs.«147668_j2740189135665_1_alg».proof.Proof.RegionMatmul
import proofs.«147668_j2740189135665_1_alg».proof.Proof.RegionHead
import proofs.«147668_j2740189135665_1_alg».proof.Proof.Net

set_option maxRecDepth 16384

noncomputable section

namespace Cert.KernelIdeal.Whole

open Cert.KernelIdeal Cert.KernelIdeal.Gen Cert.KernelIdeal.HostStages Cert.KernelIdeal.RegionValue
open Idealize.ShloMosaic Idealize.ShloMosaic.TcCoe Idealize.SL.Sem

variable (m : (ℓ : Loc nD τ sig) → Buf (Elt Idealize.ShloMosaic.Ideal) ℓ) (ρ : Dev nD → PrngReg) (c : Dev nD)

/-! ## At region 0's entry -/
theorem w3_v6 : W3 m ρ c (Proc.devRef .tc main_v6) = Cert.Gcn.srcOf (m ((c : Thread nD τ).loc main_arg1)) := pre0_v6 (W0 m ρ c)
theorem w3_v8 : W3 m ρ c (Proc.devRef .tc main_v8) = Cert.Gcn.dstOf (m ((c : Thread nD τ).loc main_arg1)) := pre0_v8 (W0 m ρ c)
theorem w3_v31 : W3 m ρ c (Proc.devRef .tc main_v31) = Cert.Gcn.nrmOf (m ((c : Thread nD τ).loc main_arg1)) := pre0_v31 (W0 m ρ c)
theorem w3_arg0 : W3 m ρ c (Proc.devRef .tc main_arg0) = (m ((c : Thread nD τ).loc main_arg0)) := pre0_arg0 (W0 m ρ c)
theorem w3_arg2 : W3 m ρ c (Proc.devRef .tc main_arg2) = (m ((c : Thread nD τ).loc main_arg2)) := pre0_arg2 (W0 m ρ c)
theorem w3_arg3 : W3 m ρ c (Proc.devRef .tc main_arg3) = (m ((c : Thread nD τ).loc main_arg3)) := pre0_arg3 (W0 m ρ c)
theorem w3_arg4 : W3 m ρ c (Proc.devRef .tc main_arg4) = (m ((c : Thread nD τ).loc main_arg4)) := pre0_arg4 (W0 m ρ c)
theorem w3_arg5 : W3 m ρ c (Proc.devRef .tc main_arg5) = (m ((c : Thread nD τ).loc main_arg5)) := pre0_arg5 (W0 m ρ c)
theorem w3_arg6 : W3 m ρ c (Proc.devRef .tc main_arg6) = (m ((c : Thread nD τ).loc main_arg6)) := pre0_arg6 (W0 m ρ c)
theorem w3_arg7 : W3 m ρ c (Proc.devRef .tc main_arg7) = (m ((c : Thread nD τ).loc main_arg7)) := pre0_arg7 (W0 m ρ c)
theorem w3_arg8 : W3 m ρ c (Proc.devRef .tc main_arg8) = (m ((c : Thread nD τ).loc main_arg8)) := pre0_arg8 (W0 m ρ c)
theorem w3_arg9 : W3 m ρ c (Proc.devRef .tc main_arg9) = (m ((c : Thread nD τ).loc main_arg9)) := pre0_arg9 (W0 m ρ c)

/-! ## At region 0's exit: features times weights -/
theorem w4_v32 : W4 m ρ c (Proc.devRef .tc main_v32) = Cert.Gcn.matProd (n := 100000) (k := 518) (m := 128) (m ((c : Thread nD τ).loc main_arg0)) (m ((c : Thread nD τ).loc main_arg2)) := by
  refine (W4_arr m ρ c 2).trans ((final0 (V3 m ρ) c).trans ?_)
  rw [show V3 m ρ c main_arg0 = (m ((c : Thread nD τ).loc main_arg0)) from w3_arg0 m ρ c, show V3 m ρ c main_arg2 = (m ((c : Thread nD τ).loc main_arg2)) from w3_arg2 m ρ c]
theorem w4_v6 : W4 m ρ c (Proc.devRef .tc main_v6) = Cert.Gcn.srcOf (m ((c : Thread nD τ).loc main_arg1)) := (W4_of_ne m ρ c main_v6 (by decide)).trans (w3_v6 m ρ c)
theorem w4_v8 : W4 m ρ c (Proc.devRef .tc main_v8) = Cert.Gcn.dstOf (m ((c : Thread nD τ).loc main_arg1)) := (W4_of_ne m ρ c main_v8 (by decide)).trans (w3_v8 m ρ c)
theorem w4_v31 : W4 m ρ c (Proc.devRef .tc main_v31) = Cert.Gcn.nrmOf (m ((c : Thread nD τ).loc main_arg1)) := (W4_of_ne m ρ c main_v31 (by decide)).trans (w3_v31 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)

/-! ## At region 1's entry: the first layer -/
theorem w5_v48 : W5 m ρ c (Proc.devRef .tc main_v48) = Cert.Gcn.layer1 (m ((c : Thread nD τ).loc main_arg0)) (m ((c : Thread nD τ).loc main_arg1)) (m ((c : Thread nD τ).loc main_arg2)) (m ((c : Thread nD τ).loc main_arg3)) := by
  refine (mid1_v48 (W4 m ρ c)).trans ?_
  rw [w4_v32 m ρ c, w4_v6 m ρ c, w4_v8 m ρ c, w4_v31 m ρ c, w4_arg3 m ρ c]
  rfl
theorem w5_v6 : W5 m ρ c (Proc.devRef .tc main_v6) = Cert.Gcn.srcOf (m ((c : Thread nD τ).loc main_arg1)) := (keep1_v6 (W4 m ρ c)).trans (w4_v6 m ρ c)
theorem w5_v8 : W5 m ρ c (Proc.devRef .tc main_v8) = Cert.Gcn.dstOf (m ((c : Thread nD τ).loc main_arg1)) := (keep1_v8 (W4 m ρ c)).trans (w4_v8 m ρ c)
theorem w5_v31 : W5 m ρ c (Proc.devRef .tc main_v31) = Cert.Gcn.nrmOf (m ((c : Thread nD τ).loc main_arg1)) := (keep1_v31 (W4 m ρ c)).trans (w4_v31 m ρ c)
theorem w5_arg4 : W5 m ρ c (Proc.devRef .tc main_arg4) = (m ((c : Thread nD τ).loc main_arg4)) := (keep1_arg4 (W4 m ρ c)).trans (w4_arg4 m ρ c)
theorem w5_arg5 : W5 m ρ c (Proc.devRef .tc main_arg5) = (m ((c : Thread nD τ).loc main_arg5)) := (keep1_arg5 (W4 m ρ c)).trans (w4_arg5 m ρ c)
theorem w5_arg6 : W5 m ρ c (Proc.devRef .tc main_arg6) = (m ((c : Thread nD τ).loc main_arg6)) := (keep1_arg6 (W4 m ρ c)).trans (w4_arg6 m ρ c)
theorem w5_arg7 : W5 m ρ c (Proc.devRef .tc main_arg7) = (m ((c : Thread nD τ).loc main_arg7)) := (keep1_arg7 (W4 m ρ c)).trans (w4_arg7 m ρ c)
theorem w5_arg8 : W5 m ρ c (Proc.devRef .tc main_arg8) = (m ((c : Thread nD τ).loc main_arg8)) := (keep1_arg8 (W4 m ρ c)).trans (w4_arg8 m ρ c)
theorem w5_arg9 : W5 m ρ c (Proc.devRef .tc main_arg9) = (m ((c : Thread nD τ).loc main_arg9)) := (keep1_arg9 (W4 m ρ c)).trans (w4_arg9 m ρ c)

/-! ## At region 1's exit: the first layer times the second weights -/
theorem w6_v49 : W6 m ρ c (Proc.devRef .tc main_v49) = Cert.Gcn.matProd (n := 100000) (k := 128) (m := 128) (Cert.Gcn.layer1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W6_arr m ρ c 2).trans ((final1 (V5 m ρ) c).trans ?_)
  rw [show V5 m ρ c main_v48 = Cert.Gcn.layer1 (m ((c : Thread nD τ).loc main_arg0)) (m ((c : Thread nD τ).loc main_arg1)) (m ((c : Thread nD τ).loc main_arg2)) (m ((c : Thread nD τ).loc main_arg3)) from w5_v48 m ρ c, show V5 m ρ c main_arg4 = (m ((c : Thread nD τ).loc main_arg4)) from w5_arg4 m ρ c]
theorem w6_v6 : W6 m ρ c (Proc.devRef .tc main_v6) = Cert.Gcn.srcOf (m ((c : Thread nD τ).loc main_arg1)) := (W6_of_ne m ρ c main_v6 (by decide)).trans (w5_v6 m ρ c)
theorem w6_v8 : W6 m ρ c (Proc.devRef .tc main_v8) = Cert.Gcn.dstOf (m ((c : Thread nD τ).loc main_arg1)) := (W6_of_ne m ρ c main_v8 (by decide)).trans (w5_v8 m ρ c)
theorem w6_v31 : W6 m ρ c (Proc.devRef .tc main_v31) = Cert.Gcn.nrmOf (m ((c : Thread nD τ).loc main_arg1)) := (W6_of_ne m ρ c main_v31 (by decide)).trans (w5_v31 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)

/-! ## At region 2's entry: the second layer -/
theorem w7_v65 : W7 m ρ c (Proc.devRef .tc main_v65) = Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (mid2_v65 (W6 m ρ c)).trans ?_
  rw [w6_v49 m ρ c, w6_v6 m ρ c, w6_v8 m ρ c, w6_v31 m ρ c, w6_arg5 m ρ c]
  rfl
theorem w7_arg6 : W7 m ρ c (Proc.devRef .tc main_arg6) = (m ((c : Thread nD τ).loc main_arg6)) := (keep2_arg6 (W6 m ρ c)).trans (w6_arg6 m ρ c)
theorem w7_arg7 : W7 m ρ c (Proc.devRef .tc main_arg7) = (m ((c : Thread nD τ).loc main_arg7)) := (keep2_arg7 (W6 m ρ c)).trans (w6_arg7 m ρ c)
theorem w7_arg8 : W7 m ρ c (Proc.devRef .tc main_arg8) = (m ((c : Thread nD τ).loc main_arg8)) := (keep2_arg8 (W6 m ρ c)).trans (w6_arg8 m ρ c)
theorem w7_arg9 : W7 m ρ c (Proc.devRef .tc main_arg9) = (m ((c : Thread nD τ).loc main_arg9)) := (keep2_arg9 (W6 m ρ c)).trans (w6_arg9 m ρ c)

/-! ## At the end: the classifier head of the second layer -/
theorem w8_v66 : W8 m ρ c (Proc.devRef .tc main_v66) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((final2 (V7 m ρ) c).trans ?_)
  rw [show V7 m ρ c main_v65 = Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from w7_v65 m ρ c, show V7 m ρ c main_arg6 = (m ((c : Thread nD τ).loc main_arg6)) from w7_arg6 m ρ c,
    show V7 m ρ c main_arg7 = (m ((c : Thread nD τ).loc main_arg7)) from w7_arg7 m ρ c, show V7 m ρ c main_arg8 = (m ((c : Thread nD τ).loc main_arg8)) from w7_arg8 m ρ c,
    show V7 m ρ c main_arg9 = (m ((c : Thread nD τ).loc main_arg9)) from w7_arg9 m ρ c]
  rfl

/-- The idealized kernel's run: every weakly fair execution terminates, the result buffer ends at the network function
    of the argument arrays, and the argument arrays end as launched. -/
theorem run (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ (fun r => ∀ c : Dev nD,
      r.2.mem ((c.tc : Thread nD τ).loc main_v66) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w8_v66 m ρ c), (h c).2⟩) (Gen.run_result m ρ)

end Cert.KernelIdeal.Whole

end
-- ==== Proof.RefLayers.lean ====
/-
  The reference's dense layers as pure functions, and what they are on the extended reals: each host matrix
  product is the sum over the inner index of the products, a bias spread over the rows adds the bias to every
  row, and the larger of an entry and a spread zero is the rectifier; so the reference's classifier head is the
  specification's.
-/
import proofs.«147668_j2740189135665_1_alg».proof.Proof.Gen.ReferenceIdeal
import proofs.«147668_j2740189135665_1_alg».proof.Proof.Spec
import Idealize.ShloMosaic.Lib.Pipeline.Value
import Idealize.ShloMosaic.Lib.ValueIdx
import Idealize.ShloMosaic.PureOps.Ideal.Laws

noncomputable section

namespace Cert.ReferenceIdeal.HostFn

open Cert.ReferenceIdeal Cert.ReferenceIdeal.Gen Idealize.ShloMosaic

variable {F : FTy → Type} [FloatOps F]

/-! ### The product [100000, 518] · [518, 128] -/

/-- The host's product of an array of shape [100000, 518] with one of shape [518, 128]. -/
def dot32 (x : (⟨S100000x518, .f32⟩ : BufTy).Contents (Elt F)) (w : (⟨S518x128, .f32⟩ : BufTy).Contents (Elt F)) : (⟨S100000x128, .f32⟩ : BufTy).Contents (Elt F) :=
  Host.dotGeneral dot_S100000x518_S518x128_S100000x128_1_0_0_1_n_n none x w

theorem dot32_lhs0 (i : S100000x128.Idx) (q : dot_S100000x518_S518x128_S100000x128_1_0_0_1_n_n.contr.Idx) : (dot_S100000x518_S518x128_S100000x128_1_0_0_1_n_n.lhsIdx i q 0).val = (i 0).val := by
  unfold DotDims.lhsIdx
  rw [dif_neg (show ¬(0 : Fin S100000x518.rank) ∈ dot_S100000x518_S518x128_S100000x128_1_0_0_1_n_n.lhsBatch by decide), dif_pos (show (0 : Fin S100000x518.rank) ∈ dot_S100000x518_S518x128_S100000x128_1_0_0_1_n_n.lhsNonContracting by decide)]
  rfl
theorem dot32_lhs1 (i : S100000x128.Idx) (q : dot_S100000x518_S518x128_S100000x128_1_0_0_1_n_n.contr.Idx) : (dot_S100000x518_S518x128_S100000x128_1_0_0_1_n_n.lhsIdx i q 1).val = (q ⟨0, by decide⟩).val :=
  dot_S100000x518_S518x128_S100000x128_1_0_0_1_n_n.lhsIdx_val_of_single rfl i q
theorem dot32_rhs0 (i : S100000x128.Idx) (q : dot_S100000x518_S518x128_S100000x128_1_0_0_1_n_n.contr.Idx) : (dot_S100000x518_S518x128_S100000x128_1_0_0_1_n_n.rhsIdx i q 0).val = (q ⟨0, by decide⟩).val :=
  dot_S100000x518_S518x128_S100000x128_1_0_0_1_n_n.rhsIdx_val_of_single rfl i q
theorem dot32_rhs1 (i : S100000x128.Idx) (q : dot_S100000x518_S518x128_S100000x128_1_0_0_1_n_n.contr.Idx) : (dot_S100000x518_S518x128_S100000x128_1_0_0_1_n_n.rhsIdx i q 1).val = (i 1).val := by
  unfold DotDims.rhsIdx
  rw [dif_neg (show ¬(1 : Fin S518x128.rank) ∈ dot_S100000x518_S518x128_S100000x128_1_0_0_1_n_n.rhsBatch by decide), dif_pos (show (1 : Fin S518x128.rank) ∈ dot_S100000x518_S518x128_S100000x128_1_0_0_1_n_n.rhsNonContracting by decide)]
  rfl

/-- On the extended reals the host's product is, entry by entry, the sum over the inner index of the products. -/
theorem dot32_eq (x : (⟨S100000x518, .f32⟩ : BufTy).Contents (Elt Ideal)) (w : (⟨S518x128, .f32⟩ : BufTy).Contents (Elt Ideal)) :
    dot32 (F := Ideal) x w = Cert.Gcn.matProd (n := 100000) (k := 518) (m := 128) x w := by
  funext i
  unfold dot32 Cert.Gcn.matProd
  simp only [Host.dotGeneral]
  rw [Ideal.dotGeneral_apply, ← Equiv.sum_comp (ValueIdx.contrEquiv1 dot_S100000x518_S518x128_S100000x128_1_0_0_1_n_n 518 rfl rfl).symm]
  refine Finset.sum_congr rfl fun l _ => ?_
  have hl := ValueIdx.contrEquiv1_symm_val dot_S100000x518_S518x128_S100000x128_1_0_0_1_n_n 518 rfl rfl l
  have el : dot_S100000x518_S518x128_S100000x128_1_0_0_1_n_n.lhsIdx i ((ValueIdx.contrEquiv1 dot_S100000x518_S518x128_S100000x128_1_0_0_1_n_n 518 rfl rfl).symm l) = ValueIdx.ix2 (i 0) l := funext fun a => Fin.ext (by
    match a with
    | ⟨0, _⟩ => exact dot32_lhs0 _ _
    | ⟨1, _⟩ => exact (dot32_lhs1 _ _).trans hl)
  have er : dot_S100000x518_S518x128_S100000x128_1_0_0_1_n_n.rhsIdx i ((ValueIdx.contrEquiv1 dot_S100000x518_S518x128_S100000x128_1_0_0_1_n_n 518 rfl rfl).symm l) = ValueIdx.ix2 l (i 1) := funext fun a => Fin.ext (by
    match a with
    | ⟨0, _⟩ => exact (dot32_rhs0 _ _).trans hl
    | ⟨1, _⟩ => exact dot32_rhs1 _ _)
  exact congrArg₂ (· * ·) (congrArg x el) (congrArg w er)

/-! ### The product [100000, 128] · [128, 128] -/

/-- The host's product of an array of shape [100000, 128] with one of shape [128, 128]. -/
def dot76 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

theorem dot76_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot76_lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem dot76_rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem dot76_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- On the extended reals the host's product is, entry by entry, the sum over the inner index of the products. -/
theorem dot76_eq (x : (⟨S100000x128, .f32⟩ : BufTy).Contents (Elt Ideal)) (w : (⟨S128x128, .f32⟩ : BufTy).Contents (Elt Ideal)) :
    dot76 (F := Ideal) x w = Cert.Gcn.matProd (n := 100000) (k := 128) (m := 128) x w := by
  funext i
  unfold dot76 Cert.Gcn.matProd
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun l _ => ?_
  have hl := ValueIdx.contrEquiv1_symm_val dot_S100000x128_S128x128_S100000x128_1_0_0_1_n_n 128 rfl rfl l
  have el : dot_S100000x128_S128x128_S100000x128_1_0_0_1_n_n.lhsIdx i ((ValueIdx.contrEquiv1 dot_S100000x128_S128x128_S100000x128_1_0_0_1_n_n 128 rfl rfl).symm l) = ValueIdx.ix2 (i 0) l := funext fun a => Fin.ext (by
    match a with
    | ⟨0, _⟩ => exact dot76_lhs0 _ _
    | ⟨1, _⟩ => exact (dot76_lhs1 _ _).trans hl)
  have er : dot_S100000x128_S128x128_S100000x128_1_0_0_1_n_n.rhsIdx i ((ValueIdx.contrEquiv1 dot_S100000x128_S128x128_S100000x128_1_0_0_1_n_n 128 rfl rfl).symm l) = ValueIdx.ix2 l (i 1) := funext fun a => Fin.ext (by
    match a with
    | ⟨0, _⟩ => exact (dot76_rhs0 _ _).trans hl
    | ⟨1, _⟩ => exact dot76_rhs1 _ _)
  exact congrArg₂ (· * ·) (congrArg x el) (congrArg w er)

/-! ### The product [100000, 128] · [128, 64] -/

/-- The host's product of an array of shape [100000, 128] with one of shape [128, 64]. -/
def dot95 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

theorem dot95_lhs0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dot95_lhs1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem dot95_rhs0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem dot95_rhs1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- On the extended reals the host's product is, entry by entry, the sum over the inner index of the products. -/
theorem dot95_eq (x : (⟨S100000x128, .f32⟩ : BufTy).Contents (Elt Ideal)) (w : (⟨S128x64, .f32⟩ : BufTy).Contents (Elt Ideal)) :
    dot95 (F := Ideal) x w = Cert.Gcn.matProd (n := 100000) (k := 128) (m := 64) x w := by
  funext i
  unfold dot95 Cert.Gcn.matProd
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun l _ => ?_
  have hl := ValueIdx.contrEquiv1_symm_val dot_S100000x128_S128x64_S100000x64_1_0_0_1_n_n 128 rfl rfl l
  have el : dot_S100000x128_S128x64_S100000x64_1_0_0_1_n_n.lhsIdx i ((ValueIdx.contrEquiv1 dot_S100000x128_S128x64_S100000x64_1_0_0_1_n_n 128 rfl rfl).symm l) = ValueIdx.ix2 (i 0) l := funext fun a => Fin.ext (by
    match a with
    | ⟨0, _⟩ => exact dot95_lhs0 _ _
    | ⟨1, _⟩ => exact (dot95_lhs1 _ _).trans hl)
  have er : dot_S100000x128_S128x64_S100000x64_1_0_0_1_n_n.rhsIdx i ((ValueIdx.contrEquiv1 dot_S100000x128_S128x64_S100000x64_1_0_0_1_n_n 128 rfl rfl).symm l) = ValueIdx.ix2 l (i 1) := funext fun a => Fin.ext (by
    match a with
    | ⟨0, _⟩ => exact (dot95_rhs0 _ _).trans hl
    | ⟨1, _⟩ => exact dot95_rhs1 _ _)
  exact congrArg₂ (· * ·) (congrArg x el) (congrArg w er)

/-! ### The product [100000, 64] · [64, 4] -/

/-- The host's product of an array of shape [100000, 64] with one of shape [64, 4]. -/
def dot101 (x : (⟨S100000x64, .f32⟩ : BufTy).Contents (Elt F)) (w : (⟨S64x4, .f32⟩ : BufTy).Contents (Elt F)) : (⟨S100000x4, .f32⟩ : BufTy).Contents (Elt F) :=
  Host.dotGeneral dot_S100000x64_S64x4_S100000x4_1_0_0_1_n_n none x w

theorem dot101_lhs0 (i : S100000x4.Idx) (q : dot_S100000x64_S64x4_S100000x4_1_0_0_1_n_n.contr.Idx) : (dot_S100000x64_S64x4_S100000x4_1_0_0_1_n_n.lhsIdx i q 0).val = (i 0).val := by
  unfold DotDims.lhsIdx
  rw [dif_neg (show ¬(0 : Fin S100000x64.rank) ∈ dot_S100000x64_S64x4_S100000x4_1_0_0_1_n_n.lhsBatch by decide), dif_pos (show (0 : Fin S100000x64.rank) ∈ dot_S100000x64_S64x4_S100000x4_1_0_0_1_n_n.lhsNonContracting by decide)]
  rfl
theorem dot101_lhs1 (i : S100000x4.Idx) (q : dot_S100000x64_S64x4_S100000x4_1_0_0_1_n_n.contr.Idx) : (dot_S100000x64_S64x4_S100000x4_1_0_0_1_n_n.lhsIdx i q 1).val = (q ⟨0, by decide⟩).val :=
  dot_S100000x64_S64x4_S100000x4_1_0_0_1_n_n.lhsIdx_val_of_single rfl i q
theorem dot101_rhs0 (i : S100000x4.Idx) (q : dot_S100000x64_S64x4_S100000x4_1_0_0_1_n_n.contr.Idx) : (dot_S100000x64_S64x4_S100000x4_1_0_0_1_n_n.rhsIdx i q 0).val = (q ⟨0, by decide⟩).val :=
  dot_S100000x64_S64x4_S100000x4_1_0_0_1_n_n.rhsIdx_val_of_single rfl i q
theorem dot101_rhs1 (i : S100000x4.Idx) (q : dot_S100000x64_S64x4_S100000x4_1_0_0_1_n_n.contr.Idx) : (dot_S100000x64_S64x4_S100000x4_1_0_0_1_n_n.rhsIdx i q 1).val = (i 1).val := by
  unfold DotDims.rhsIdx
  rw [dif_neg (show ¬(1 : Fin S64x4.rank) ∈ dot_S100000x64_S64x4_S100000x4_1_0_0_1_n_n.rhsBatch by decide), dif_pos (show (1 : Fin S64x4.rank) ∈ dot_S100000x64_S64x4_S100000x4_1_0_0_1_n_n.rhsNonContracting by decide)]
  rfl

/-- On the extended reals the host's product is, entry by entry, the sum over the inner index of the products. -/
theorem dot101_eq (x : (⟨S100000x64, .f32⟩ : BufTy).Contents (Elt Ideal)) (w : (⟨S64x4, .f32⟩ : BufTy).Contents (Elt Ideal)) :
    dot101 (F := Ideal) x w = Cert.Gcn.matProd (n := 100000) (k := 64) (m := 4) x w := by
  funext i
  unfold dot101 Cert.Gcn.matProd
  simp only [Host.dotGeneral]
  rw [Ideal.dotGeneral_apply, ← Equiv.sum_comp (ValueIdx.contrEquiv1 dot_S100000x64_S64x4_S100000x4_1_0_0_1_n_n 64 rfl rfl).symm]
  refine Finset.sum_congr rfl fun l _ => ?_
  have hl := ValueIdx.contrEquiv1_symm_val dot_S100000x64_S64x4_S100000x4_1_0_0_1_n_n 64 rfl rfl l
  have el : dot_S100000x64_S64x4_S100000x4_1_0_0_1_n_n.lhsIdx i ((ValueIdx.contrEquiv1 dot_S100000x64_S64x4_S100000x4_1_0_0_1_n_n 64 rfl rfl).symm l) = ValueIdx.ix2 (i 0) l := funext fun a => Fin.ext (by
    match a with
    | ⟨0, _⟩ => exact dot101_lhs0 _ _
    | ⟨1, _⟩ => exact (dot101_lhs1 _ _).trans hl)
  have er : dot_S100000x64_S64x4_S100000x4_1_0_0_1_n_n.rhsIdx i ((ValueIdx.contrEquiv1 dot_S100000x64_S64x4_S100000x4_1_0_0_1_n_n 64 rfl rfl).symm l) = ValueIdx.ix2 l (i 1) := funext fun a => Fin.ext (by
    match a with
    | ⟨0, _⟩ => exact (dot101_rhs0 _ _).trans hl
    | ⟨1, _⟩ => exact dot101_rhs1 _ _)
  exact congrArg₂ (· * ·) (congrArg x el) (congrArg w er)

/-! ### Biases and rectifiers -/

/-- A bias of length 64 spread over the rows: every row of the spread array is the bias. -/
theorem spread64 (b : (⟨S64, .f32⟩ : BufTy).Contents (Elt Ideal)) (i : S100000x64.Idx) :
    broadcastInDim S100000x64 ![0, 1] bcast_S1x64_S100000x64_0_1 (broadcastInDim S1x64 ![1] bcast_S64_S1x64_1 b) i = b (ValueIdx.ix1 (i 1)) := by
  rw [broadcastInDim_apply _ bcast_S1x64_S100000x64_0_1 _ i (ValueIdx.ix2 (0 : Fin 1) (i 1)) (fun a => match a with
    | ⟨0, _⟩ => by show (0 : Nat) = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b _ (ValueIdx.ix1 (i 1)) (fun a => match a with
    | ⟨0, _⟩ => by show (i 1).val = if (64 : Nat) = 1 then 0 else (i 1).val; rw [if_neg (by decide)])

theorem addRow64 (A : (⟨S100000x64, .f32⟩ : BufTy).Contents (Elt Ideal)) (b : (⟨S64, .f32⟩ : BufTy).Contents (Elt Ideal)) :
    addf (F := Ideal) (s := S100000x64) (φ := .f32) A (broadcastInDim S100000x64 ![0, 1] bcast_S1x64_S100000x64_0_1 (broadcastInDim S1x64 ![1] bcast_S64_S1x64_1 b)) = Cert.Gcn.addRow (n := 100000) (m := 64) A b :=
  funext fun i => congrArg (A i + ·) (spread64 b i)

/-- A bias of length 4 spread over the rows: every row of the spread array is the bias. -/
theorem spread4 (b : (⟨S4, .f32⟩ : BufTy).Contents (Elt Ideal)) (i : S100000x4.Idx) :
    broadcastInDim S100000x4 ![0, 1] bcast_S1x4_S100000x4_0_1 (broadcastInDim S1x4 ![1] bcast_S4_S1x4_1 b) i = b (ValueIdx.ix1 (i 1)) := by
  rw [broadcastInDim_apply _ bcast_S1x4_S100000x4_0_1 _ i (ValueIdx.ix2 (0 : Fin 1) (i 1)) (fun a => match a with
    | ⟨0, _⟩ => by show (0 : Nat) = if (1 : Nat) = 1 then 0 else (i 0).val; rw [if_pos rfl]
    | ⟨1, _⟩ => by show (i 1).val = if (4 : Nat) = 1 then 0 else (i 1).val; rw [if_neg (by decide)])]
  exact broadcastInDim_apply _ bcast_S4_S1x4_1 b _ (ValueIdx.ix1 (i 1)) (fun a => match a with
    | ⟨0, _⟩ => by show (i 1).val = if (4 : Nat) = 1 then 0 else (i 1).val; rw [if_neg (by decide)])

theorem addRow4 (A : (⟨S100000x4, .f32⟩ : BufTy).Contents (Elt Ideal)) (b : (⟨S4, .f32⟩ : BufTy).Contents (Elt Ideal)) :
    addf (F := Ideal) (s := S100000x4) (φ := .f32) A (broadcastInDim S100000x4 ![0, 1] bcast_S1x4_S100000x4_0_1 (broadcastInDim S1x4 ![1] bcast_S4_S1x4_1 b)) = Cert.Gcn.addRow (n := 100000) (m := 4) A b :=
  funext fun i => congrArg (A i + ·) (spread4 b i)

/-- The larger of each entry and a spread zero word is the rectifier. -/
theorem relu128 (A : (⟨S100000x128, .f32⟩ : BufTy).Contents (Elt Ideal)) :
    maximumf A (broadcastInDim S100000x128 ![] bcast_S_S100000x128 (constant (F := Ideal) S_ .f32 0x00000000#32)) = Cert.Gcn.relu (n := 100000) (m := 128) A :=
  funext fun i => rfl
theorem relu64 (A : (⟨S100000x64, .f32⟩ : BufTy).Contents (Elt Ideal)) :
    maximumf A (broadcastInDim S100000x64 ![] bcast_S_S100000x64 (constant (F := Ideal) S_ .f32 0x00000000#32)) = Cert.Gcn.relu (n := 100000) (m := 64) A :=
  funext fun i => rfl

/-! ### The classifier head -/

/-- The reference's classifier head, operation by operation: rectifier, product, bias, rectifier, product, bias. -/
def headH (h : (⟨S100000x128, .f32⟩ : BufTy).Contents (Elt F)) (w1 : (⟨S128x64, .f32⟩ : BufTy).Contents (Elt F)) (b1 : (⟨S64, .f32⟩ : BufTy).Contents (Elt F))
    (w2 : (⟨S64x4, .f32⟩ : BufTy).Contents (Elt F)) (b2 : (⟨S4, .f32⟩ : BufTy).Contents (Elt F)) : (⟨S100000x4, .f32⟩ : BufTy).Contents (Elt F) :=
  addf (dot101 (maximumf (addf (dot95 (maximumf h (broadcastInDim S100000x128 ![] bcast_S_S100000x128 (constant S_ .f32 0x00000000#32))) w1)
      (broadcastInDim S100000x64 ![0, 1] bcast_S1x64_S100000x64_0_1 (broadcastInDim S1x64 ![1] bcast_S64_S1x64_1 b1)))
      (broadcastInDim S100000x64 ![] bcast_S_S100000x64 (constant S_ .f32 0x00000000#32))) w2)
    (broadcastInDim S100000x4 ![0, 1] bcast_S1x4_S100000x4_0_1 (broadcastInDim S1x4 ![1] bcast_S4_S1x4_1 b2))

/-- On the extended reals the reference's head is the specification's. -/
theorem headH_eq (h : (⟨S100000x128, .f32⟩ : BufTy).Contents (Elt Ideal)) (w1 : (⟨S128x64, .f32⟩ : BufTy).Contents (Elt Ideal)) (b1 : (⟨S64, .f32⟩ : BufTy).Contents (Elt Ideal))
    (w2 : (⟨S64x4, .f32⟩ : BufTy).Contents (Elt Ideal)) (b2 : (⟨S4, .f32⟩ : BufTy).Contents (Elt Ideal)) :
    headH (F := Ideal) h w1 b1 w2 b2 = Cert.Gcn.head (n := 100000) h w1 b1 w2 b2 := by
  unfold headH Cert.Gcn.head
  rw [relu128, dot95_eq, addRow64, relu64, dot101_eq, addRow4]

end Cert.ReferenceIdeal.HostFn

end
-- ==== Proof.RefValue.lean ====
/-
  The reference program's result as one function of its ten argument arrays.

  The program is a straight line of 133 host operations; the contents of its buffers after the line are the fold of
  the operations over the launch contents.  The line is cut into stretches, and each stretch is read as a pure
  function of the buffers it starts from: the edge list with one self loop per node and its two rows (source and
  destination of every edge); the weight of every edge (the product of the inverse square roots of the in-degrees
  at its two ends); the product of the node features with the first weights; one round of message passing with
  bias; the two rows and the edge weights once more (the second layer recomputes them from the same edge list, so
  they are the same functions of it); the product with the second weights; the second round of message passing;
  the classifier head.  A buffer that no operation of a stretch writes keeps its contents over the stretch, and no
  operation ever writes an argument.  Chaining the stretches from the launch contents gives the network.  Nothing
  is computed and no law of arithmetic is used: every step reads the program.
-/
import proofs.«147668_j2740189135665_1_alg».proof.Proof.RefRunP
import proofs.«147668_j2740189135665_1_alg».proof.Proof.RefLayers
import proofs.«147668_j2740189135665_1_alg».proof.Proof.Net
import proofs.«147668_j2740189135665_1_alg».proof.Proof.Gen.KernelIdeal
import Idealize.ShloMosaic.Lib.StableHlo.Run
set_option maxRecDepth 16384
noncomputable section
namespace Cert.ReferenceIdeal.RefValue
open Cert.ReferenceIdeal Cert.ReferenceIdeal.Gen Idealize.ShloMosaic Idealize.ShloMosaic.TcCoe Idealize.SL.Sem Idealize.ShloMosaic.StableHlo

local notation "Idl" => Idealize.ShloMosaic.Ideal
/-- The reference program's operation list on the extended reals. -/
abbrev opsI : List (HloOp τ sig (Elt Idealize.ShloMosaic.Ideal)) := Cert.ReferenceIdeal.ValueP.ops (F := Idealize.ShloMosaic.Ideal)

/-- Turns a stretch of the operation list, given by its two cut points, into the literal list of its operations. -/
macro "seg_lit" : tactic =>
  `(tactic| simp only [opsI, Cert.ReferenceIdeal.ValueP.ops, List.take_succ_cons, List.take_zero, List.drop_succ_cons, List.drop_zero])

/-- A buffer that no operation of a stretch writes keeps its contents over the stretch. -/
macro "keeps" : tactic =>
  `(tactic| (refine StableHlo.after_of_forall_not_mem _ _ (List.forall_iff_forall_mem.mp ?_)
             simp only [opsI, Cert.ReferenceIdeal.ValueP.ops, List.take_succ_cons, List.take_zero, List.drop_succ_cons, List.drop_zero,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

macro "results_rw" : tactic => `(tactic| (repeat (first | rw [nullary_result] | rw [unary_result] | rw [binary_result] | rw [ternary_result] | rw [quaternary_result] | rw [reshape_result] | (rw [nullary_result_ne]; rotate_left; decide) | (rw [unary_result_ne]; rotate_left; decide) | (rw [binary_result_ne]; rotate_left; decide) | (rw [ternary_result_ne]; rotate_left; decide) | (rw [quaternary_result_ne]; rotate_left; decide) | (rw [reshape_result_ne]; rotate_left; decide))))

/-! ## Folding a list of operations in two parts -/

theorem after_append (l₁ l₂ : List (HloOp τ sig (Elt Idl))) (V : Valuation τ sig (Elt Idl)) :
    after (l₁ ++ l₂) V = after l₂ (after l₁ V) := by
  induction l₁ generalizing V with
  | nil => rfl
  | cons op l ih => exact ih (op.result V)

/-- The contents after the first b operations are the contents after the first a, then the operations from a to b. -/
theorem after_take (l : List (HloOp τ sig (Elt Idl))) (a b : Nat) (h : a ≤ b) (V : Valuation τ sig (Elt Idl)) :
    after (l.take b) V = after ((l.take b).drop a) (after (l.take a) V) := by
  rw [← after_append]
  refine congrArg (fun k => after k V) ?_
  have e : (l.take b).take a = l.take a := by rw [List.take_take, Nat.min_eq_left h]
  rw [← e, List.take_append_drop]

/-! ## The edge list with self loops, and its two rows -/

theorem seg0_v4 (W : Valuation τ sig (Elt Idl)) :
    after (opsI.take 9) W (Proc.devRef .tc main_v4) = Cert.KernelIdeal.HostFn.edges (W (Proc.devRef .tc main_arg1)) := by
  seg_lit; after_results_simp; results_rw; rfl

theorem seg0_v6 (W : Valuation τ sig (Elt Idl)) :
    after (opsI.take 9) W (Proc.devRef .tc main_v6) = Cert.KernelIdeal.HostFn.srcE (Cert.KernelIdeal.HostFn.edges (W (Proc.devRef .tc main_arg1))) := by
  seg_lit; after_results_simp; results_rw; rfl

theorem seg0_v8 (W : Valuation τ sig (Elt Idl)) :
    after (opsI.take 9) W (Proc.devRef .tc main_v8) = Cert.KernelIdeal.HostFn.dstE (Cert.KernelIdeal.HostFn.edges (W (Proc.devRef .tc main_arg1))) := by
  seg_lit; after_results_simp; results_rw; rfl

/-! ## The weight of every edge

  The program keeps the value "zero where the degree is not positive" in buffers of a called function; their
  contents are carried there and back along equalities of buffer types that hold by computation, so each such
  transport is the identity. -/

theorem toBuf_v16 (h1 : main_v16.ty = ⟨S100000, .f32⟩) (h2 : main_v16.space ≠ .host) (h3 : main_v16.isScoped = false)
    (v : (⟨S100000, .f32⟩ : BufTy).Contents (Elt Idl)) : (TRef.of (T := ⟨S100000, .f32⟩) main_v16 h1 h2 h3).toBuf v = v := id rfl
theorem ofBuf_v16 (h1 : main_v16.ty = ⟨S100000, .f32⟩) (h2 : main_v16.space ≠ .host) (h3 : main_v16.isScoped = false)
    (v : main_v16.ty.Contents (Elt Idl)) : (TRef.of (T := ⟨S100000, .f32⟩) main_v16 h1 h2 h3).ofBuf v = v := id rfl

theorem toBuf_v14 (h1 : main_v14.ty = ⟨S100000, .i1⟩) (h2 : main_v14.space ≠ .host) (h3 : main_v14.isScoped = false)
    (v : (⟨S100000, .i1⟩ : BufTy).Contents (Elt Idl)) : (TRef.of (T := ⟨S100000, .i1⟩) main_v14 h1 h2 h3).toBuf v = v := id rfl
theorem ofBuf_v14 (h1 : main_v14.ty = ⟨S100000, .i1⟩) (h2 : main_v14.space ≠ .host) (h3 : main_v14.isScoped = false)
    (v : main_v14.ty.Contents (Elt Idl)) : (TRef.of (T := ⟨S100000, .i1⟩) main_v14 h1 h2 h3).ofBuf v = v := id rfl

theorem toBuf_v15 (h1 : main_v15.ty = ⟨S100000, .f32⟩) (h2 : main_v15.space ≠ .host) (h3 : main_v15.isScoped = false)
    (v : (⟨S100000, .f32⟩ : BufTy).Contents (Elt Idl)) : (TRef.of (T := ⟨S100000, .f32⟩) main_v15 h1 h2 h3).toBuf v = v := id rfl
theorem ofBuf_v15 (h1 : main_v15.ty = ⟨S100000, .f32⟩) (h2 : main_v15.space ≠ .host) (h3 : main_v15.isScoped = false)
    (v : main_v15.ty.Contents (Elt Idl)) : (TRef.of (T := ⟨S100000, .f32⟩) main_v15 h1 h2 h3).ofBuf v = v := id rfl

theorem toBuf_call0_v1 (h1 : main_call0_v1.ty = ⟨S100000, .f32⟩) (h2 : main_call0_v1.space ≠ .host) (h3 : main_call0_v1.isScoped = false)
    (v : (⟨S100000, .f32⟩ : BufTy).Contents (Elt Idl)) : (TRef.of (T := ⟨S100000, .f32⟩) main_call0_v1 h1 h2 h3).toBuf v = v := id rfl
theorem ofBuf_call0_v1 (h1 : main_call0_v1.ty = ⟨S100000, .f32⟩) (h2 : main_call0_v1.space ≠ .host) (h3 : main_call0_v1.isScoped = false)
    (v : main_call0_v1.ty.Contents (Elt Idl)) : (TRef.of (T := ⟨S100000, .f32⟩) main_call0_v1 h1 h2 h3).ofBuf v = v := id rfl

theorem toBuf_call0_v0 (h1 : main_call0_v0.ty = ⟨S_, .f32⟩) (h2 : main_call0_v0.space ≠ .host) (h3 : main_call0_v0.isScoped = false)
    (v : (⟨S_, .f32⟩ : BufTy).Contents (Elt Idl)) : (TRef.of (T := ⟨S_, .f32⟩) main_call0_v0 h1 h2 h3).toBuf v = v := id rfl
theorem ofBuf_call0_v0 (h1 : main_call0_v0.ty = ⟨S_, .f32⟩) (h2 : main_call0_v0.space ≠ .host) (h3 : main_call0_v0.isScoped = false)
    (v : main_call0_v0.ty.Contents (Elt Idl)) : (TRef.of (T := ⟨S_, .f32⟩) main_call0_v0 h1 h2 h3).ofBuf v = v := id rfl

theorem toBuf_cst_2 (h1 : main_cst_2.ty = ⟨S_, .f32⟩) (h2 : main_cst_2.space ≠ .host) (h3 : main_cst_2.isScoped = false)
    (v : (⟨S_, .f32⟩ : BufTy).Contents (Elt Idl)) : (TRef.of (T := ⟨S_, .f32⟩) main_cst_2 h1 h2 h3).toBuf v = v := id rfl
theorem ofBuf_cst_2 (h1 : main_cst_2.ty = ⟨S_, .f32⟩) (h2 : main_cst_2.space ≠ .host) (h3 : main_cst_2.isScoped = false)
    (v : main_cst_2.ty.Contents (Elt Idl)) : (TRef.of (T := ⟨S_, .f32⟩) main_cst_2 h1 h2 h3).ofBuf v = v := id rfl

set_option maxHeartbeats 40000000 in
theorem seg9_v31 (W : Valuation τ sig (Elt Idl)) :
    after ((opsI.take 42).drop 9) W (Proc.devRef .tc main_v31) = Cert.KernelIdeal.HostFn.normSD (W (Proc.devRef .tc main_v6)) (W (Proc.devRef .tc main_v8)) := by
  seg_lit; after_results_simp; results_rw
  simp only [toBuf_v16, ofBuf_v16, toBuf_v14, ofBuf_v14, toBuf_v15, ofBuf_v15, toBuf_call0_v1, ofBuf_call0_v1, toBuf_call0_v0, ofBuf_call0_v0, toBuf_cst_2, ofBuf_cst_2]
  unfold Cert.KernelIdeal.HostFn.normSD Cert.KernelIdeal.HostFn.dinvOf Cert.KernelIdeal.HostFn.degOf Cert.KernelIdeal.HostFn.wrapIdx
  dsimp only
  rfl

theorem seg9_keeps_v4 (W : Valuation τ sig (Elt Idl)) :
    after ((opsI.take 42).drop 9) W (Proc.devRef .tc main_v4) = W (Proc.devRef .tc main_v4) := by keeps
theorem seg9_keeps_v6 (W : Valuation τ sig (Elt Idl)) :
    after ((opsI.take 42).drop 9) W (Proc.devRef .tc main_v6) = W (Proc.devRef .tc main_v6) := by keeps
theorem seg9_keeps_v8 (W : Valuation τ sig (Elt Idl)) :
    after ((opsI.take 42).drop 9) W (Proc.devRef .tc main_v8) = W (Proc.devRef .tc main_v8) := by keeps

/-! ## The first dense product -/

theorem seg42_v32 (W : Valuation τ sig (Elt Idl)) :
    after ((opsI.take 43).drop 42) W (Proc.devRef .tc main_v32)
      = HostFn.dot32 (W (Proc.devRef .tc main_arg0)) (W (Proc.devRef .tc main_arg2)) := by
  seg_lit; after_results; rfl

theorem seg42_keeps (W : Valuation τ sig (Elt Idl)) (r : Ref sig .tc) (h : r ≠ main_v32) :
    after ((opsI.take 43).drop 42) W (Proc.devRef .tc r) = W (Proc.devRef .tc r) := by
  seg_lit
  simp only [after_cons, after_nil]
  rw [binary_result_ne]; exact h

/-! ## The first round of message passing -/

set_option maxHeartbeats 8000000 in
theorem seg43_v48 (W : Valuation τ sig (Elt Idl)) :
    after ((opsI.take 62).drop 43) W (Proc.devRef .tc main_v48)
      = Cert.KernelIdeal.HostFn.agg (W (Proc.devRef .tc main_v32)) (W (Proc.devRef .tc main_v6)) (W (Proc.devRef .tc main_v8)) (W (Proc.devRef .tc main_v31)) (W (Proc.devRef .tc main_arg3)) := by
  seg_lit; after_results_simp; rfl

theorem seg43_keeps_v4 (W : Valuation τ sig (Elt Idl)) :
    after ((opsI.take 62).drop 43) W (Proc.devRef .tc main_v4) = W (Proc.devRef .tc main_v4) := by keeps
theorem seg43_keeps_arg4 (W : Valuation τ sig (Elt Idl)) :
    after ((opsI.take 62).drop 43) W (Proc.devRef .tc main_arg4) = W (Proc.devRef .tc main_arg4) := by keeps
theorem seg43_keeps_arg5 (W : Valuation τ sig (Elt Idl)) :
    after ((opsI.take 62).drop 43) W (Proc.devRef .tc main_arg5) = W (Proc.devRef .tc main_arg5) := by keeps
theorem seg43_keeps_arg6 (W : Valuation τ sig (Elt Idl)) :
    after ((opsI.take 62).drop 43) W (Proc.devRef .tc main_arg6) = W (Proc.devRef .tc main_arg6) := by keeps
theorem seg43_keeps_arg7 (W : Valuation τ sig (Elt Idl)) :
    after ((opsI.take 62).drop 43) W (Proc.devRef .tc main_arg7) = W (Proc.devRef .tc main_arg7) := by keeps
theorem seg43_keeps_arg8 (W : Valuation τ sig (Elt Idl)) :
    after ((opsI.take 62).drop 43) W (Proc.devRef .tc main_arg8) = W (Proc.devRef .tc main_arg8) := by keeps
theorem seg43_keeps_arg9 (W : Valuation τ sig (Elt Idl)) :
    after ((opsI.take 62).drop 43) W (Proc.devRef .tc main_arg9) = W (Proc.devRef .tc main_arg9) := by keeps

/-! ## The second layer reads the two rows of the edge list again -/

theorem seg62_v50 (W : Valuation τ sig (Elt Idl)) :
    after ((opsI.take 66).drop 62) W (Proc.devRef .tc main_v50) = Cert.KernelIdeal.HostFn.srcE (W (Proc.devRef .tc main_v4)) := by
  seg_lit; after_results_simp; rfl

theorem seg62_v52 (W : Valuation τ sig (Elt Idl)) :
    after ((opsI.take 66).drop 62) W (Proc.devRef .tc main_v52) = Cert.KernelIdeal.HostFn.dstE (W (Proc.devRef .tc main_v4)) := by
  seg_lit; after_results_simp; rfl

theorem seg62_keeps_v48 (W : Valuation τ sig (Elt Idl)) :
    after ((opsI.take 66).drop 62) W (Proc.devRef .tc main_v48) = W (Proc.devRef .tc main_v48) := by keeps

/-! ## and computes the edge weights again -/

theorem toBuf_v60 (h1 : main_v60.ty = ⟨S100000, .f32⟩) (h2 : main_v60.space ≠ .host) (h3 : main_v60.isScoped = false)
    (v : (⟨S100000, .f32⟩ : BufTy).Contents (Elt Idl)) : (TRef.of (T := ⟨S100000, .f32⟩) main_v60 h1 h2 h3).toBuf v = v := id rfl
theorem ofBuf_v60 (h1 : main_v60.ty = ⟨S100000, .f32⟩) (h2 : main_v60.space ≠ .host) (h3 : main_v60.isScoped = false)
    (v : main_v60.ty.Contents (Elt Idl)) : (TRef.of (T := ⟨S100000, .f32⟩) main_v60 h1 h2 h3).ofBuf v = v := id rfl

theorem toBuf_v58 (h1 : main_v58.ty = ⟨S100000, .i1⟩) (h2 : main_v58.space ≠ .host) (h3 : main_v58.isScoped = false)
    (v : (⟨S100000, .i1⟩ : BufTy).Contents (Elt Idl)) : (TRef.of (T := ⟨S100000, .i1⟩) main_v58 h1 h2 h3).toBuf v = v := id rfl
theorem ofBuf_v58 (h1 : main_v58.ty = ⟨S100000, .i1⟩) (h2 : main_v58.space ≠ .host) (h3 : main_v58.isScoped = false)
    (v : main_v58.ty.Contents (Elt Idl)) : (TRef.of (T := ⟨S100000, .i1⟩) main_v58 h1 h2 h3).ofBuf v = v := id rfl

theorem toBuf_v59 (h1 : main_v59.ty = ⟨S100000, .f32⟩) (h2 : main_v59.space ≠ .host) (h3 : main_v59.isScoped = false)
    (v : (⟨S100000, .f32⟩ : BufTy).Contents (Elt Idl)) : (TRef.of (T := ⟨S100000, .f32⟩) main_v59 h1 h2 h3).toBuf v = v := id rfl
theorem ofBuf_v59 (h1 : main_v59.ty = ⟨S100000, .f32⟩) (h2 : main_v59.space ≠ .host) (h3 : main_v59.isScoped = false)
    (v : main_v59.ty.Contents (Elt Idl)) : (TRef.of (T := ⟨S100000, .f32⟩) main_v59 h1 h2 h3).ofBuf v = v := id rfl

theorem toBuf_call1_v1 (h1 : main_call1_v1.ty = ⟨S100000, .f32⟩) (h2 : main_call1_v1.space ≠ .host) (h3 : main_call1_v1.isScoped = false)
    (v : (⟨S100000, .f32⟩ : BufTy).Contents (Elt Idl)) : (TRef.of (T := ⟨S100000, .f32⟩) main_call1_v1 h1 h2 h3).toBuf v = v := id rfl
theorem ofBuf_call1_v1 (h1 : main_call1_v1.ty = ⟨S100000, .f32⟩) (h2 : main_call1_v1.space ≠ .host) (h3 : main_call1_v1.isScoped = false)
    (v : main_call1_v1.ty.Contents (Elt Idl)) : (TRef.of (T := ⟨S100000, .f32⟩) main_call1_v1 h1 h2 h3).ofBuf v = v := id rfl

theorem toBuf_call1_v0 (h1 : main_call1_v0.ty = ⟨S_, .f32⟩) (h2 : main_call1_v0.space ≠ .host) (h3 : main_call1_v0.isScoped = false)
    (v : (⟨S_, .f32⟩ : BufTy).Contents (Elt Idl)) : (TRef.of (T := ⟨S_, .f32⟩) main_call1_v0 h1 h2 h3).toBuf v = v := id rfl
theorem ofBuf_call1_v0 (h1 : main_call1_v0.ty = ⟨S_, .f32⟩) (h2 : main_call1_v0.space ≠ .host) (h3 : main_call1_v0.isScoped = false)
    (v : main_call1_v0.ty.Contents (Elt Idl)) : (TRef.of (T := ⟨S_, .f32⟩) main_call1_v0 h1 h2 h3).ofBuf v = v := id rfl

theorem toBuf_cst_12 (h1 : main_cst_12.ty = ⟨S_, .f32⟩) (h2 : main_cst_12.space ≠ .host) (h3 : main_cst_12.isScoped = false)
    (v : (⟨S_, .f32⟩ : BufTy).Contents (Elt Idl)) : (TRef.of (T := ⟨S_, .f32⟩) main_cst_12 h1 h2 h3).toBuf v = v := id rfl
theorem ofBuf_cst_12 (h1 : main_cst_12.ty = ⟨S_, .f32⟩) (h2 : main_cst_12.space ≠ .host) (h3 : main_cst_12.isScoped = false)
    (v : main_cst_12.ty.Contents (Elt Idl)) : (TRef.of (T := ⟨S_, .f32⟩) main_cst_12 h1 h2 h3).ofBuf v = v := id rfl

set_option maxHeartbeats 40000000 in
theorem seg66_v75 (W : Valuation τ sig (Elt Idl)) :
    after ((opsI.take 99).drop 66) W (Proc.devRef .tc main_v75) = Cert.KernelIdeal.HostFn.normSD (W (Proc.devRef .tc main_v50)) (W (Proc.devRef .tc main_v52)) := by
  seg_lit; after_results_simp; results_rw
  simp only [toBuf_v60, ofBuf_v60, toBuf_v58, ofBuf_v58, toBuf_v59, ofBuf_v59, toBuf_call1_v1, ofBuf_call1_v1, toBuf_call1_v0, ofBuf_call1_v0, toBuf_cst_12, ofBuf_cst_12]
  unfold Cert.KernelIdeal.HostFn.normSD Cert.KernelIdeal.HostFn.dinvOf Cert.KernelIdeal.HostFn.degOf Cert.KernelIdeal.HostFn.wrapIdx
  dsimp only
  rfl

theorem seg66_keeps_v48 (W : Valuation τ sig (Elt Idl)) :
    after ((opsI.take 99).drop 66) W (Proc.devRef .tc main_v48) = W (Proc.devRef .tc main_v48) := by keeps
theorem seg66_keeps_v50 (W : Valuation τ sig (Elt Idl)) :
    after ((opsI.take 99).drop 66) W (Proc.devRef .tc main_v50) = W (Proc.devRef .tc main_v50) := by keeps
theorem seg66_keeps_v52 (W : Valuation τ sig (Elt Idl)) :
    after ((opsI.take 99).drop 66) W (Proc.devRef .tc main_v52) = W (Proc.devRef .tc main_v52) := by keeps

/-! ## The second dense product -/

theorem seg99_v76 (W : Valuation τ sig (Elt Idl)) :
    after ((opsI.take 100).drop 99) W (Proc.devRef .tc main_v76)
      = HostFn.dot76 (W (Proc.devRef .tc main_v48)) (W (Proc.devRef .tc main_arg4)) := by
  seg_lit; after_results; rfl

theorem seg99_keeps (W : Valuation τ sig (Elt Idl)) (r : Ref sig .tc) (h : r ≠ main_v76) :
    after ((opsI.take 100).drop 99) W (Proc.devRef .tc r) = W (Proc.devRef .tc r) := by
  seg_lit
  simp only [after_cons, after_nil]
  rw [binary_result_ne]; exact h

/-! ## The second round of message passing -/

set_option maxHeartbeats 8000000 in
theorem seg100_v92 (W : Valuation τ sig (Elt Idl)) :
    after ((opsI.take 119).drop 100) W (Proc.devRef .tc main_v92)
      = Cert.KernelIdeal.HostFn.agg (W (Proc.devRef .tc main_v76)) (W (Proc.devRef .tc main_v50)) (W (Proc.devRef .tc main_v52)) (W (Proc.devRef .tc main_v75)) (W (Proc.devRef .tc main_arg5)) := by
  seg_lit; after_results_simp; rfl

/-! ## The classifier head -/

set_option maxHeartbeats 8000000 in
theorem seg119_v104 (W : Valuation τ sig (Elt Idl)) :
    after ((opsI.take 133).drop 119) W (Proc.devRef .tc main_v104)
      = HostFn.headH (W (Proc.devRef .tc main_v92)) (W (Proc.devRef .tc main_arg6)) (W (Proc.devRef .tc main_arg7)) (W (Proc.devRef .tc main_arg8)) (W (Proc.devRef .tc main_arg9)) := by
  seg_lit; after_results_simp; rfl

/-! ## The arguments are never written -/

set_option maxHeartbeats 8000000 in
theorem unwritten_arg0 : ∀ op ∈ opsI, Proc.devRef (τ := τ) .tc main_arg0 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg2 : ∀ op ∈ opsI, Proc.devRef (τ := τ) .tc main_arg2 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg3 : ∀ op ∈ opsI, Proc.devRef (τ := τ) .tc main_arg3 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg4 : ∀ op ∈ opsI, Proc.devRef (τ := τ) .tc main_arg4 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg5 : ∀ op ∈ opsI, Proc.devRef (τ := τ) .tc main_arg5 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg6 : ∀ op ∈ opsI, Proc.devRef (τ := τ) .tc main_arg6 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg7 : ∀ op ∈ opsI, Proc.devRef (τ := τ) .tc main_arg7 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg8 : ∀ op ∈ opsI, Proc.devRef (τ := τ) .tc main_arg8 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
theorem unwritten_arg9 : ∀ op ∈ opsI, Proc.devRef (τ := τ) .tc main_arg9 ∉ op.writes :=
  List.forall_iff_forall_mem.mp (by
    simp only [opsI, Cert.ReferenceIdeal.ValueP.ops, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- A buffer that no operation of the whole list writes keeps its contents over every initial stretch. -/
theorem keeps_of_unwritten {b : DevRef τ sig} (hb : ∀ op ∈ opsI, b ∉ op.writes) (n : Nat) (W : Valuation τ sig (Elt Idl)) :
    after (opsI.take n) W b = W b :=
  after_of_forall_not_mem _ _ fun op h => hb op (List.mem_of_mem_take h)

/-! ## The whole fold, stretch by stretch

  The edge list with self loops and its two rows; the edge weights; the first dense product; the first round of
  message passing; the two rows and the edge weights a second time (the same functions of the same edge list); the
  second dense product; the second round of message passing; the classifier head. -/

section Chain
variable (m : (ℓ : Loc nD τ sig) → Buf (Elt Idl) ℓ) (c : Dev nD)

/-- The buffer contents after the first n operations, from the launch contents. -/
def upTo (n : Nat) : Valuation τ sig (Elt Idl) := after (opsI.take n) (launchContents m c)

theorem upTo_step (a b : Nat) (h : a ≤ b) : upTo m c b = after ((opsI.take b).drop a) (upTo m c a) :=
  after_take opsI a b h _

theorem upTo_arg0 (n : Nat) : upTo m c n (Proc.devRef .tc main_arg0) = (m ((c.tc : Thread nD τ).loc main_arg0)) :=
  keeps_of_unwritten unwritten_arg0 n _
theorem upTo_arg2 (n : Nat) : upTo m c n (Proc.devRef .tc main_arg2) = (m ((c.tc : Thread nD τ).loc main_arg2)) :=
  keeps_of_unwritten unwritten_arg2 n _
theorem upTo_arg3 (n : Nat) : upTo m c n (Proc.devRef .tc main_arg3) = (m ((c.tc : Thread nD τ).loc main_arg3)) :=
  keeps_of_unwritten unwritten_arg3 n _
theorem upTo_arg4 (n : Nat) : upTo m c n (Proc.devRef .tc main_arg4) = (m ((c.tc : Thread nD τ).loc main_arg4)) :=
  keeps_of_unwritten unwritten_arg4 n _
theorem upTo_arg5 (n : Nat) : upTo m c n (Proc.devRef .tc main_arg5) = (m ((c.tc : Thread nD τ).loc main_arg5)) :=
  keeps_of_unwritten unwritten_arg5 n _
theorem upTo_arg6 (n : Nat) : upTo m c n (Proc.devRef .tc main_arg6) = (m ((c.tc : Thread nD τ).loc main_arg6)) :=
  keeps_of_unwritten unwritten_arg6 n _
theorem upTo_arg7 (n : Nat) : upTo m c n (Proc.devRef .tc main_arg7) = (m ((c.tc : Thread nD τ).loc main_arg7)) :=
  keeps_of_unwritten unwritten_arg7 n _
theorem upTo_arg8 (n : Nat) : upTo m c n (Proc.devRef .tc main_arg8) = (m ((c.tc : Thread nD τ).loc main_arg8)) :=
  keeps_of_unwritten unwritten_arg8 n _
theorem upTo_arg9 (n : Nat) : upTo m c n (Proc.devRef .tc main_arg9) = (m ((c.tc : Thread nD τ).loc main_arg9)) :=
  keeps_of_unwritten unwritten_arg9 n _

theorem at9_v4 : upTo m c 9 (Proc.devRef .tc main_v4) = (Cert.KernelIdeal.HostFn.edges (m ((c.tc : Thread nD τ).loc main_arg1))) := (seg0_v4 (launchContents m c)).trans rfl
theorem at9_v6 : upTo m c 9 (Proc.devRef .tc main_v6) = (Cert.KernelIdeal.HostFn.srcE (Cert.KernelIdeal.HostFn.edges (m ((c.tc : Thread nD τ).loc main_arg1)))) := (seg0_v6 (launchContents m c)).trans rfl
theorem at9_v8 : upTo m c 9 (Proc.devRef .tc main_v8) = (Cert.KernelIdeal.HostFn.dstE (Cert.KernelIdeal.HostFn.edges (m ((c.tc : Thread nD τ).loc main_arg1)))) := (seg0_v8 (launchContents m c)).trans rfl

theorem at42_v4 : upTo m c 42 (Proc.devRef .tc main_v4) = (Cert.KernelIdeal.HostFn.edges (m ((c.tc : Thread nD τ).loc main_arg1))) := by
  rw [upTo_step m c 9 42 (by decide), seg9_keeps_v4, at9_v4]
theorem at42_v6 : upTo m c 42 (Proc.devRef .tc main_v6) = (Cert.KernelIdeal.HostFn.srcE (Cert.KernelIdeal.HostFn.edges (m ((c.tc : Thread nD τ).loc main_arg1)))) := by
  rw [upTo_step m c 9 42 (by decide), seg9_keeps_v6, at9_v6]
theorem at42_v8 : upTo m c 42 (Proc.devRef .tc main_v8) = (Cert.KernelIdeal.HostFn.dstE (Cert.KernelIdeal.HostFn.edges (m ((c.tc : Thread nD τ).loc main_arg1)))) := by
  rw [upTo_step m c 9 42 (by decide), seg9_keeps_v8, at9_v8]
theorem at42_v31 : upTo m c 42 (Proc.devRef .tc main_v31) = (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) := by
  rw [upTo_step m c 9 42 (by decide), seg9_v31, at9_v6, at9_v8]

theorem at43_v32 : upTo m c 43 (Proc.devRef .tc main_v32) = (Cert.Gcn.matProd (n := 100000) (k := 518) (m := 128) (m ((c.tc : Thread nD τ).loc main_arg0)) (m ((c.tc : Thread nD τ).loc main_arg2))) := by
  rw [upTo_step m c 42 43 (by decide), seg42_v32, upTo_arg0, upTo_arg2, HostFn.dot32_eq]
theorem at43_v4 : upTo m c 43 (Proc.devRef .tc main_v4) = (Cert.KernelIdeal.HostFn.edges (m ((c.tc : Thread nD τ).loc main_arg1))) := by
  rw [upTo_step m c 42 43 (by decide), seg42_keeps _ main_v4 (by decide), at42_v4]
theorem at43_v6 : upTo m c 43 (Proc.devRef .tc main_v6) = (Cert.KernelIdeal.HostFn.srcE (Cert.KernelIdeal.HostFn.edges (m ((c.tc : Thread nD τ).loc main_arg1)))) := by
  rw [upTo_step m c 42 43 (by decide), seg42_keeps _ main_v6 (by decide), at42_v6]
theorem at43_v8 : upTo m c 43 (Proc.devRef .tc main_v8) = (Cert.KernelIdeal.HostFn.dstE (Cert.KernelIdeal.HostFn.edges (m ((c.tc : Thread nD τ).loc main_arg1)))) := by
  rw [upTo_step m c 42 43 (by decide), seg42_keeps _ main_v8 (by decide), at42_v8]
theorem at43_v31 : upTo m c 43 (Proc.devRef .tc main_v31) = (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) := by
  rw [upTo_step m c 42 43 (by decide), seg42_keeps _ main_v31 (by decide), at42_v31]

theorem at62_v48 : upTo m c 62 (Proc.devRef .tc main_v48) = (Cert.Gcn.layer1 (m ((c.tc : Thread nD τ).loc main_arg0)) (m ((c.tc : Thread nD τ).loc main_arg1)) (m ((c.tc : Thread nD τ).loc main_arg2)) (m ((c.tc : Thread nD τ).loc main_arg3))) := by
  have h : upTo m c 62 (Proc.devRef .tc main_v48) = Cert.KernelIdeal.HostFn.agg (Cert.Gcn.matProd (n := 100000) (k := 518) (m := 128) (m ((c.tc : Thread nD τ).loc main_arg0)) (m ((c.tc : Thread nD τ).loc main_arg2))) (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1)))) (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) (m ((c.tc : Thread nD τ).loc main_arg3)) := by
    rw [upTo_step m c 43 62 (by decide), seg43_v48, at43_v32, at43_v6, at43_v8, at43_v31, upTo_arg3]
  exact h
theorem at62_v4 : upTo m c 62 (Proc.devRef .tc main_v4) = (Cert.KernelIdeal.HostFn.edges (m ((c.tc : Thread nD τ).loc main_arg1))) := by
  rw [upTo_step m c 43 62 (by decide), seg43_keeps_v4, at43_v4]

theorem at66_v50 : upTo m c 66 (Proc.devRef .tc main_v50) = (Cert.KernelIdeal.HostFn.srcE (Cert.KernelIdeal.HostFn.edges (m ((c.tc : Thread nD τ).loc main_arg1)))) := by
  rw [upTo_step m c 62 66 (by decide), seg62_v50, at62_v4]
theorem at66_v52 : upTo m c 66 (Proc.devRef .tc main_v52) = (Cert.KernelIdeal.HostFn.dstE (Cert.KernelIdeal.HostFn.edges (m ((c.tc : Thread nD τ).loc main_arg1)))) := by
  rw [upTo_step m c 62 66 (by decide), seg62_v52, at62_v4]
theorem at66_v48 : upTo m c 66 (Proc.devRef .tc main_v48) = (Cert.Gcn.layer1 (m ((c.tc : Thread nD τ).loc main_arg0)) (m ((c.tc : Thread nD τ).loc main_arg1)) (m ((c.tc : Thread nD τ).loc main_arg2)) (m ((c.tc : Thread nD τ).loc main_arg3))) := by
  rw [upTo_step m c 62 66 (by decide), seg62_keeps_v48, at62_v48]

theorem at99_v75 : upTo m c 99 (Proc.devRef .tc main_v75) = (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) := by
  rw [upTo_step m c 66 99 (by decide), seg66_v75, at66_v50, at66_v52]
theorem at99_v48 : upTo m c 99 (Proc.devRef .tc main_v48) = (Cert.Gcn.layer1 (m ((c.tc : Thread nD τ).loc main_arg0)) (m ((c.tc : Thread nD τ).loc main_arg1)) (m ((c.tc : Thread nD τ).loc main_arg2)) (m ((c.tc : Thread nD τ).loc main_arg3))) := by
  rw [upTo_step m c 66 99 (by decide), seg66_keeps_v48, at66_v48]
theorem at99_v50 : upTo m c 99 (Proc.devRef .tc main_v50) = (Cert.KernelIdeal.HostFn.srcE (Cert.KernelIdeal.HostFn.edges (m ((c.tc : Thread nD τ).loc main_arg1)))) := by
  rw [upTo_step m c 66 99 (by decide), seg66_keeps_v50, at66_v50]
theorem at99_v52 : upTo m c 99 (Proc.devRef .tc main_v52) = (Cert.KernelIdeal.HostFn.dstE (Cert.KernelIdeal.HostFn.edges (m ((c.tc : Thread nD τ).loc main_arg1)))) := by
  rw [upTo_step m c 66 99 (by decide), seg66_keeps_v52, at66_v52]

theorem at100_v76 : upTo m c 100 (Proc.devRef .tc main_v76) = (Cert.Gcn.matProd (n := 100000) (k := 128) (m := 128) (Cert.Gcn.layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  rw [upTo_step m c 99 100 (by decide), seg99_v76, at99_v48, upTo_arg4, HostFn.dot76_eq]
theorem at100_v50 : upTo m c 100 (Proc.devRef .tc main_v50) = (Cert.KernelIdeal.HostFn.srcE (Cert.KernelIdeal.HostFn.edges (m ((c.tc : Thread nD τ).loc main_arg1)))) := by
  rw [upTo_step m c 99 100 (by decide), seg99_keeps _ main_v50 (by decide), at99_v50]
theorem at100_v52 : upTo m c 100 (Proc.devRef .tc main_v52) = (Cert.KernelIdeal.HostFn.dstE (Cert.KernelIdeal.HostFn.edges (m ((c.tc : Thread nD τ).loc main_arg1)))) := by
  rw [upTo_step m c 99 100 (by decide), seg99_keeps _ main_v52 (by decide), at99_v52]
theorem at100_v75 : upTo m c 100 (Proc.devRef .tc main_v75) = (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) := by
  rw [upTo_step m c 99 100 (by decide), seg99_keeps _ main_v75 (by decide), at99_v75]

theorem at119_v92 : upTo m c 119 (Proc.devRef .tc main_v92) = (Cert.Gcn.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  have h : upTo m c 119 (Proc.devRef .tc main_v92) = Cert.KernelIdeal.HostFn.agg (Cert.Gcn.matProd (n := 100000) (k := 128) (m := 128) (Cert.Gcn.layer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1)))) (Cert.KernelIdeal.HostFn.normSD (Cert.KernelIdeal.HostFn.srcE (Cert.KernelIdeal.HostFn.edges (m ((c.tc : Thread nD τ).loc main_arg1)))) (Cert.KernelIdeal.HostFn.dstE (Cert.KernelIdeal.HostFn.edges (m ((c.tc : Thread nD τ).loc main_arg1))))) (m ((c.tc : Thread nD τ).loc main_arg5)) := by
    rw [upTo_step m c 100 119 (by decide), seg100_v92, at100_v76, at100_v50, at100_v52, at100_v75, upTo_arg5]
  exact h

theorem at133_v104 : upTo m c 133 (Proc.devRef .tc main_v104)
    = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h : upTo m c 133 (Proc.devRef .tc main_v104) = Cert.Gcn.head (n := 100000) (Cert.Gcn.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9)) := by
    rw [upTo_step m c 119 133 (by decide), seg119_v104, at119_v92, upTo_arg6, upTo_arg7, upTo_arg8, upTo_arg9, HostFn.headH_eq]
  exact h

end Chain

/-- The reference program's result buffer holds the network of the ten argument arrays. -/
theorem result_eq (m : (ℓ : Loc nD τ sig) → Buf (Elt Idealize.ShloMosaic.Ideal) ℓ) (c : Dev nD) :
    StableHlo.after (Cert.ReferenceIdeal.ValueP.ops (F := Idealize.ShloMosaic.Ideal)) (launchContents m c) (Proc.devRef .tc main_v104)
      = Cert.Gcn.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  have h133 : opsI.take 133 = opsI := List.take_of_length_le (Nat.le_of_eq rfl)
  have h := at133_v104 m c
  unfold upTo at h
  rw [h133] at h
  exact h

end Cert.ReferenceIdeal.RefValue
end
-- ==== Proof.lean ====
/-
  The certificate of the graph network: two rounds of (dense product, message passing over the edge list with self
  loops, bias) and a classifier head, over 100000 nodes.

  The kernel program computes the three dense stages in row-blocked regions (blocks of 2000 rows, 50 grid points
  each) and the message passing on the host; the reference computes everything on the host and works out the edge
  weights twice.  On the extended reals a change of float format is the identity, a block product into a zero
  accumulator is the sum over the inner index, and a row block of a product depends only on that block's rows, so
  each region leaves exactly the whole-array product (or head) of its inputs; the host operations between the regions
  are letter for letter the reference's.  Both programs therefore end with the one function `Cert.Gcn.net` of the
  ten argument arrays in the result buffer, and the claim follows with no use of the precondition: no law that needs
  finiteness is applied, only the reading of sums entry by entry.

  The three frames are the programs' runs with the result dropped; the idealization rewrote nothing, so `preserves`
  is trivial.
-/
import proofs.«147668_j2740189135665_1_alg».proof.Defs
import proofs.«147668_j2740189135665_1_alg».proof.Proof.Gen.Kernel
import proofs.«147668_j2740189135665_1_alg».proof.Proof.Gen.Kernel.Frame
import proofs.«147668_j2740189135665_1_alg».proof.Proof.Gen.KernelIdeal
import proofs.«147668_j2740189135665_1_alg».proof.Proof.Gen.KernelIdeal.Frame
import proofs.«147668_j2740189135665_1_alg».proof.Proof.Gen.ReferenceIdeal
import proofs.«147668_j2740189135665_1_alg».proof.Proof.Gen.Pre_finite_inputs
import proofs.«147668_j2740189135665_1_alg».proof.Proof.KernelValue
import proofs.«147668_j2740189135665_1_alg».proof.Proof.RefRunP
import proofs.«147668_j2740189135665_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the network function of the arguments in the result buffer; the arguments
    agree, so the results are equal. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
